-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S200000 : Shape := ⟨1, ![200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg13 : FVec F S256x1 .f32) (main_arg14 : FVec F S1 .f32) (main_v33 : IVec S_ 1) : IVec S_ 1 :=
  let main_v34 : FVec F S256x1 .f32 := Host.absf main_arg13
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg14
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg10 : FVec F S256x128 .f32) (main_arg11 : FVec F S256x128 .f32) (main_arg12 : FVec F S128 .f32) (main_arg13 : FVec F S256x1 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg10
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg11
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_v33

def fn {F : FTy → Type} [FloatOps F] (main_arg0 : FVec F S50000x128 .f32) (main_arg1 : IVec S800000 32) (main_arg2 : IVec S800000 32) (main_arg3 : IVec S200000 32) (main_arg4 : IVec S200000 32) (main_arg5 : IVec S200000 32) (main_arg6 : IVec S200000 32) (main_arg7 : FVec F S128x256 .f32) (main_arg8 : FVec F S128x256 .f32) (main_arg9 : FVec F S256 .f32) (main_arg10 : FVec F S256x128 .f32) (main_arg11 : FVec F S256x128 .f32) (main_arg12 : FVec F S128 .f32) (main_arg13 : FVec F S256x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_v13 main_v16
-- ==== Kernel.lean ====
abbrev S50000x128 : Shape := ⟨2, ![50000, 128]⟩
abbrev S800000 : Shape := ⟨1, ![800000]⟩
abbrev S200000 : Shape := ⟨1, ![200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S128x1 : Shape := ⟨2, ![128, 1]⟩
abbrev S128x2 : Shape := ⟨2, ![128, 2]⟩
abbrev S1x128 : Shape := ⟨2, ![1, 128]⟩
abbrev S50000x2 : Shape := ⟨2, ![50000, 2]⟩
abbrev S2000x2 : Shape := ⟨2, ![2000, 2]⟩
abbrev S1x1 : Shape := ⟨2, ![1, 1]⟩
abbrev S200000x1 : Shape := ⟨2, ![200000, 1]⟩

abbrev nBuf : Space → Nat
  | .hbm => 115
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S200000, .i32⟩
  | .hbm, ⟨6, _⟩ => ⟨S200000, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S256x128, .f32⟩
  | .hbm, ⟨12, _⟩ => ⟨S128, .f32⟩
  | .hbm, ⟨13, _⟩ => ⟨S256x1, .f32⟩
  | .hbm, ⟨14, _⟩ => ⟨S1, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x256, .f32⟩
  | .hbm, ⟨42, _⟩ => ⟨S50000x256, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S128x1, .f32⟩
  | .hbm, ⟨65, _⟩ => ⟨S128x1, .f32⟩
  | .hbm, ⟨66, _⟩ => ⟨S128x2, .f32⟩
  | .hbm, ⟨67, _⟩ => ⟨S1x128, .f32⟩
  | .hbm, ⟨68, _⟩ => ⟨S50000x128, .f32⟩
  | .hbm, ⟨69, _⟩ => ⟨S50000x2, .f32⟩
  | .hbm, ⟨70, _⟩ => ⟨S50000x1, .f32⟩
  | .hbm, ⟨71, _⟩ => ⟨S50000x1, .f32⟩
  | .hbm, ⟨72, _⟩ => ⟨S1x1, .f32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S200000x1, .f32⟩
  | .hbm, ⟨82, _⟩ => ⟨S_, .i32⟩
  | .hbm, ⟨83, _⟩ => ⟨S200000, .i32⟩
  | .hbm, ⟨84, _⟩ => ⟨S200000, .i1⟩
  | .hbm, ⟨85, _⟩ => ⟨S_, .i32⟩
  | .hbm, ⟨86, _⟩ => ⟨S200000, .i32⟩
  | .hbm, ⟨87, _⟩ => ⟨S200000, .i32⟩
  | .hbm, ⟨88, _⟩ => ⟨S200000, .i32⟩
  | .hbm, ⟨89, _⟩ => ⟨S200000x1, .i32⟩
  | .hbm, ⟨90, _⟩ => ⟨S200000x1, .f32⟩
  | .hbm, ⟨91, _⟩ => ⟨S200000x1, .f32⟩
  | .hbm, ⟨92, _⟩ => ⟨S200000x1, .f32⟩
  | .hbm, ⟨93, _⟩ => ⟨S200000x1, .f32⟩
  | .hbm, ⟨94, _⟩ => ⟨S_, .i32⟩
  | .hbm, ⟨95, _⟩ => ⟨S200000, .i32⟩
  | .hbm, ⟨96, _⟩ => ⟨S200000, .i1⟩
  | .hbm, ⟨97, _⟩ => ⟨S_, .i32⟩
  | .hbm, ⟨98, _⟩ => ⟨S200000, .i32⟩
  | .hbm, ⟨99, _⟩ => ⟨S200000, .i32⟩
  | .hbm, ⟨100, _⟩ => ⟨S200000, .i32⟩
  | .hbm, ⟨101, _⟩ => ⟨S200000x1, .i32⟩
  | .hbm, ⟨102, _⟩ => ⟨S200000x1, .f32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x1, .f32⟩
  | .hbm, ⟨112, _⟩ => ⟨S200000x1, .f32⟩
  | .hbm, ⟨113, _⟩ => ⟨S200000x1, .f32⟩
  | .hbm, ⟨114, _⟩ => ⟨S200000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x128, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S256x128, .f32⟩
  | .local _ .vmem, ⟨19, _⟩ => ⟨S1x128, .f32⟩
  | .local _ .vmem, ⟨20, _⟩ => ⟨S128x2, .f32⟩
  | .local _ .vmem, ⟨21, _⟩ => ⟨S2000x128, .f32⟩
  | .local _ .vmem, ⟨22, _⟩ => ⟨S2000x128, .f32⟩
  | .local _ .vmem, ⟨23, _⟩ => ⟨S2000x2, .f32⟩
  | .local _ .vmem, ⟨24, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39_0 : Ref sig .tc := ⟨.hbm, 68, rfl⟩
abbrev main_v39_1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_c_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_c_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2000x2_S2000x2_0_0 : ∀ a, (![0, 0] : Fin 2 → Nat) a + S2000x2.size a ≤ S2000x2.size a
  h_S2000x2 : 0 < S2000x2.numel
  slices_S50000x2_S50000x1_0_0 : S50000x2.Slices ![0, 0] S50000x1
  slices_S50000x2_S50000x1_0_1 : S50000x2.Slices ![0, 1] S50000x1
  shapeCasts_S1_S1x1 : S1.ShapeCasts S1x1
  bcast_S_S200000 : S_.BroadcastsInDim S200000 (![] : Fin 0 → Fin S200000.rank)
  bcast_S200000_S200000x1_0 : S200000.BroadcastsInDim S200000x1 (![0] : Fin 1 → Fin S200000x1.rank)
  bcast_S1x1_S200000x1_0_1 : S1x1.BroadcastsInDim S200000x1 (![0, 1] : Fin 2 → Fin S200000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x2_S2000x2_1_0_0_1_n_n_wf : DotDims.WF S2000x128 S128x2 S2000x2 [1] [0] [0] [1] [] []
  gather_S50000x1_S200000x1_S200000x1_1_0_n_n_0_1_11_wf : GatherDims.WF S50000x1 S200000x1 S200000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x2.size a ≤ S50000x2.size a
  hwx2_6 : ∀ i : grid2.Coords, EltTy.bits .f32 = 32 ∨ (Rect.block (s := S50000x2) S2000x2.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x1_S200000x1_S200000x1_1_0_n_n_0_1_11 : GatherDims S50000x1 S200000x1 S200000x1 where
  offsetDims := [1]
  collapsedSliceDims := [0]
  operandBatchingDims := []
  startIndicesBatchingDims := []
  startIndexMap := [0]
  indexVectorDim := 1
  sliceSizes := ![1, 1]
  wf := gather_S50000x1_S200000x1_S200000x1_1_0_n_n_0_1_11_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S2000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S200000 : Shape := ⟨1, ![200000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S200000x1 : Shape := ⟨2, ![200000, 1]⟩
abbrev S200000x128 : Shape := ⟨2, ![200000, 128]⟩
abbrev S128x1 : Shape := ⟨2, ![128, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S200000, .i32⟩
  | 4 => ⟨S200000, .i32⟩
  | 5 => ⟨S200000, .i32⟩
  | 6 => ⟨S200000, .i32⟩
  | 7 => ⟨S128x256, .f32⟩
  | 8 => ⟨S128x256, .f32⟩
  | 9 => ⟨S256, .f32⟩
  | 10 => ⟨S256x128, .f32⟩
  | 11 => ⟨S256x128, .f32⟩
  | 12 => ⟨S128, .f32⟩
  | 13 => ⟨S256x1, .f32⟩
  | 14 => ⟨S1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x256, .f32⟩
  | 42 => ⟨S50000x256, .f32⟩
  | 43 => ⟨S50000x256, .f32⟩
  | 44 => ⟨S1x256, .f32⟩
  | 45 => ⟨S50000x256, .f32⟩
  | 46 => ⟨S50000x256, .f32⟩
  | 47 => ⟨S_, .f32⟩
  | 48 => ⟨S50000x256, .f32⟩
  | 49 => ⟨S50000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x128, .f32⟩
  | 91 => ⟨S128x1, .f32⟩
  | 92 => ⟨S200000x1, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x128, .f32⟩
  | 102 => ⟨S128x1, .f32⟩
  | 103 => ⟨S200000x1, .f32⟩
  | 104 => ⟨S200000x1, .f32⟩
  | 105 => ⟨S1x1, .f32⟩
  | 106 => ⟨S200000x1, .f32⟩
  | 107 => ⟨S200000x1, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000x128, .f32⟩
  | 117 => ⟨S128x1, .f32⟩
  | 118 => ⟨S200000x1, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x128, .f32⟩
  | _ => ⟨S50000x128, .f32⟩

abbrev hbmTy0_1 (i : Nat) : BufTy := match i % 128 with
  | 0 => ⟨S128x1, .f32⟩
  | 1 => ⟨S200000x1, .f32⟩
  | 2 => ⟨S200000x1, .f32⟩
  | 3 => ⟨S1x1, .f32⟩
  | 4 => ⟨S200000x1, .f32⟩
  | 5 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_cst : Ref sig .tc := ⟨.hbm, 47, rfl⟩
abbrev main_call1_v0 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_10 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_12 : Ref sig .tc := ⟨.hbm, 93, rfl⟩
abbrev main_v58 : Ref sig .tc := ⟨.hbm, 94, rfl⟩
abbrev main_v59 : Ref sig .tc := ⟨.hbm, 95, rfl⟩
abbrev main_c_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_c_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_16 : Ref sig .tc := ⟨.hbm, 119, rfl⟩
abbrev main_v80 : Ref sig .tc := ⟨.hbm, 120, rfl⟩
abbrev main_v81 : Ref sig .tc := ⟨.hbm, 121, rfl⟩
abbrev main_c_17 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S200000x1_S200000x128_1_0_n_n_0_1_1128_wf : GatherDims.WF S50000x128 S200000x1 S200000x128 [1] [0] [] [0] [] 1 ![1, 128]
  dot_S200000x128_S128x1_S200000x1_1_0_0_1_n_n_wf : DotDims.WF S200000x128 S128x1 S200000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.Spec.lean ====
/-
  The mathematics of a two-layer mean-aggregating graph network with an edge scorer, over the extended reals.
  Arrays are functions on rank-2 index sets. A node's neighbourhood mean is the sum, over the edges whose
  destination word is that node, of the rows the edges' source words select (each word read signed; a source
  clamped into the table, a destination outside the table contributing nothing), divided by a per-node positive
  count. Layer one is max(x·W + mean(x)·W' + b, 0); layer two h·W + mean(h)·W' + b; an edge's score is
  h₂[src]·Wa + h₂[dst]·Wb + bias.
  The one algebraic law needed: a matrix product passes through the neighbourhood mean,
  mean(h · W) = mean(h) · W, whenever every entry of h is nonnegative and every count a positive real: on the
  extended reals a product distributes over a sum of nonnegative terms, and a positive real factor over any sum.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A rank-2 array of extended reals. -/
abbrev Arr (N C : Nat) : Type := (⟨2, ![N, C]⟩ : Shape).Idx → EReal
/-- A column of index words, one per edge. -/
abbrev IArr (E : Nat) : Type := (⟨2, ![E, 1]⟩ : Shape).Idx → BitVec 32
/-- A rank-1 array of extended reals. -/
abbrev Vec1 (C : Nat) : Type := (⟨1, ![C]⟩ : Shape).Idx → EReal

/-- The matrix product. -/
def mm {N K C : Nat} (a : Arr N K) (b : Arr K C) : Arr N C :=
  fun i => ∑ k : Fin K, a (ix2 (i 0) k) * b (ix2 k (i 1))

/-- The row an index word selects: the word read signed, clamped into the table. -/
def rowOf (N : Nat) (hN : 0 < N) (w : BitVec 32) : Fin N := ⟨min w.toInt.toNat (N - 1), by omega⟩

/-- The rows of a table that a column of index words selects. -/
def rowsAt {N E C : Nat} (hN : 0 < N) (sidx : IArr E) (a : Arr N C) : Arr E C :=
  fun j => a (ix2 (rowOf N hN (sidx (ix2 (j 0) 0))) (j 1))

/-- Per table row, the sum of the update rows whose index word, read signed, is that row. -/
def segsum {N E C : Nat} (didx : IArr E) (v : Arr E C) : Arr N C :=
  fun i => ∑ e ∈ Finset.univ.filter (fun e : Fin E => (didx (ix2 e 0)).toInt = ((i 0).val : Int)), v (ix2 e (i 1))

/-- The neighbourhood mean: gathered rows summed per destination, over the per-node count. -/
def meanAgg {N E C : Nat} (hN : 0 < N) (cc : Fin N → EReal) (sidx didx : IArr E) (a : Arr N C) : Arr N C :=
  fun i => Ideal.div (segsum didx (rowsAt hN sidx a) i) (cc (i 0))

/-- Layer one. -/
def layer1 {N K C : Nat} (x nb : Arr N K) (ws wn : Arr K C) (b : Vec1 C) : Arr N C :=
  fun i => max (mm x ws i + mm nb wn i + b (ix1 (i 1))) 0

/-- Layer two, from the mean of the projected rows (the form that aggregates after projecting). -/
def layer2 {N K C : Nat} (h : Arr N K) (nbp : Arr N C) (ws : Arr K C) (b : Vec1 C) : Arr N C :=
  fun i => mm h ws i + nbp i + b (ix1 (i 1))

/-- An edge's score from the node embeddings. -/
def score {N E K : Nat} (hN : 0 < N) (h : Arr N K) (wa wb : Arr K 1) (bias : EReal) (ps pd : IArr E) : Arr E 1 :=
  fun j => mm h wa (ix2 (rowOf N hN (ps (ix2 (j 0) 0))) 0) + mm h wb (ix2 (rowOf N hN (pd (ix2 (j 0) 0))) 0) + bias

/-- The float word of zero denotes 0. -/
theorem ofBits_zero : Ideal.ofBits .f32 0x00000000#32 = 0 := Ideal.ofBits_zero_f32

/-- The float word of one denotes 1. -/
theorem ofBits_one : Ideal.ofBits .f32 0x3F800000#32 = 1 := by
  simp [Ideal.ofBits, Ideal.ieee, -EReal.coe_mul]; norm_num

/-! ## Sums on the extended reals -/

/-- A nonnegative real factor distributes over any finite sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- Any factor distributes over a finite sum of nonnegative terms. -/
theorem sum_mul_of_nonneg {ι : Type} (s : Finset ι) (f : ι → EReal) (hf : ∀ i ∈ s, 0 ≤ f i) (w : EReal) :
    (∑ i ∈ s, f i) * w = ∑ i ∈ s, f i * w := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- THE LAW: a matrix product passes through the neighbourhood mean of a nonnegative table over positive real
    counts. -/
theorem meanAgg_mm {N E K C : Nat} (hN : 0 < N) (cc : Fin N → EReal) (hcc : ∀ n, ∃ r : ℝ, 0 < r ∧ cc n = (r : EReal))
    (sidx didx : IArr E) (h : Arr N K) (hh : ∀ i, 0 ≤ h i) (w : Arr K C) :
    meanAgg hN cc sidx didx (mm h w) = mm (meanAgg hN cc sidx didx h) w := by
  funext i
  obtain ⟨r, hr, hc⟩ := hcc (i 0)
  have hr0 : (r : ℝ) ≠ 0 := ne_of_gt hr
  have hq : (0 : ℝ) ≤ 1 / r := by positivity
  show Ideal.div (∑ e ∈ Finset.univ.filter (fun e : Fin E => (didx (ix2 e 0)).toInt = ((i 0).val : Int)),
        ∑ k : Fin K, h (ix2 (rowOf N hN (sidx (ix2 e 0))) k) * w (ix2 k (i 1))) (cc (i 0))
      = ∑ k : Fin K, Ideal.div (∑ e ∈ Finset.univ.filter (fun e : Fin E => (didx (ix2 e 0)).toInt = ((i 0).val : Int)),
          h (ix2 (rowOf N hN (sidx (ix2 e 0))) k)) (cc (i 0)) * w (ix2 k (i 1))
  rw [hc]
  simp only [Ideal.div_coe hr0]
  have hR : ∀ k : Fin K,
      (∑ e ∈ Finset.univ.filter (fun e : Fin E => (didx (ix2 e 0)).toInt = ((i 0).val : Int)),
          h (ix2 (rowOf N hN (sidx (ix2 e 0))) k)) * ((1 / r : ℝ) : EReal) * w (ix2 k (i 1))
      = (∑ e ∈ Finset.univ.filter (fun e : Fin E => (didx (ix2 e 0)).toInt = ((i 0).val : Int)),
          h (ix2 (rowOf N hN (sidx (ix2 e 0))) k) * w (ix2 k (i 1))) * ((1 / r : ℝ) : EReal) := by
    intro k
    rw [mul_right_comm]
    congr 1
    exact sum_mul_of_nonneg _ _ (fun e _ => hh _) _
  simp only [hR]
  rw [← sum_mul_coe _ _ _ hq, Finset.sum_comm]

end Cert.Spec

end
-- ==== Proof.Pay0.lean ====
/-
  Layer one's stored value, read at one element: row p, column q of the block is
  max(sum over k of x(p,k) ws(k,q) + sum over k of nb(p,k) wn(k,q) + b(0,q), 0), the sums over the 128 contracted
  positions. The format changes on the way into the products are the identity on the extended reals, a reshape to
  the same shape is the identity, a product accumulated into the zero array is the plain sum, the one-row bias
  laid along every row reads its row 0, and the float word of zero denotes 0.
-/
import proofs.«160922_j50053548868188_2_alg».proof.Proof.Gen.KernelIdeal.Frame
import proofs.«160922_j50053548868188_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-! The operand indices of the [2000,128] by [128,256] contraction, coordinate by coordinate. -/

theorem dot0_lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dot0_lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem dot0_rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem dot0_rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000,128] by [128,256] product into the zero array, at (p, q): the sum over the contracted axis. -/
theorem matmul0_apply {φ₁ φ₂ : FTy} (a : FVec Ideal S2000x128 φ₁) (b : FVec Ideal S128x256 φ₂) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  show FloatOps.matmul dot_S2000x128_S128x256_S2000x256_1_0_0_1_n_n none a b (constant (F := Ideal) S2000x256 .f32 0x00000000#32) (ix2 p q) = _
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact dot0_lhs_0 _ _
    | ⟨1, _⟩ => exact (dot0_lhs_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (dot0_rhs_0 _ _).trans hk
    | ⟨1, _⟩ => exact dot0_rhs_1 _ _)
  rw [el, er]

/-- Layer one's stored block at (p, q). -/
theorem k0_pay1_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) 0 := by
  unfold k0_pay1
  rw [maximumf_apply, addf_apply, addf_apply, matmul0_apply, matmul0_apply, broadcast_apply,
    broadcastTo_1b_ab_apply, shapeCast_self, shapeCast_self]
  simp only [truncf_apply]
  show max _ (Ideal.ofBits .f32 0x00000000#32) = _
  rw [Cert.Spec.ofBits_zero]

end Cert.KernelIdeal.RegionValue

end
-- ==== Proof.Region0.lean ====
/-
  Layer one's region as one array: after its 25 grid points the output array [50000,256] holds
  max(x ws + nb wn + b, 0), x and nb the two row-blocked [50000,128] inputs, ws and wn the two [128,256] weights,
  b the one-row bias. Point t writes back rows 2000 t to 2000 t + 1999; the row blocks it reads are the same rows
  of the two inputs, the weights and the bias are read whole; so what it writes is block t of that array. Every
  row r lies in the block of point r / 2000, hence the blocks cover the array.
-/
import proofs.«160922_j50053548868188_2_alg».proof.Proof.Gen.KernelIdeal.Frame
import proofs.«160922_j50053548868188_2_alg».proof.Proof.Spec
import proofs.«160922_j50053548868188_2_alg».proof.Proof.Pay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access. -/
theorem zero_off0 : (![0, 0] : Fin 2 → Nat) = fun _ => 0 := funext fun a => by fin_cases a <;> rfl

/-- The block indices at point t: the row-blocked windows are at block (t, 0), the whole-array ones at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first input's block at point t holds rows 2000 t ... of its array. -/
theorem iblk0_0_apply (c : Dev nD) (t : Fin cfg0.N) (x : S2000x128.Idx) (i : S50000x128.Idx)
    (h0 : (i 0).val = t.val * 2000 + (x 0).val) (h1 : (i 1).val = (x 1).val) :
    (iblk0 V c 0 t : Vec Ideal S2000x128 .f32) x = (V c (Pipeline.arrRef spec0 0) : S50000x128.Idx → EReal) i := by
  obtain ⟨a0, a1, -, -, -, -, -, -, -, -, -, -⟩ := idx_facts0 t
  unfold iblk0
  rw [View.read_apply]
  show (V c (Pipeline.arrRef spec0 0) : S50000x128.Idx → EReal) _ = _
  refine congrArg (V c (Pipeline.arrRef spec0 0) : S50000x128.Idx → EReal) ?_
  funext a
  apply Fin.ext
  match a with
  | ⟨0, _⟩ => show win0_0.index t (0 : Fin 2) * 2000 + 1 * (x 0).val = (i 0).val; rw [a0, h0]; omega
  | ⟨1, _⟩ => show win0_0.index t (1 : Fin 2) * 128 + 1 * (x 1).val = (i 1).val; rw [a1, h1]; omega

/-- The second input's block at point t holds rows 2000 t ... of its array. -/
theorem iblk0_1_apply (c : Dev nD) (t : Fin cfg0.N) (x : S2000x128.Idx) (i : S50000x128.Idx)
    (h0 : (i 0).val = t.val * 2000 + (x 0).val) (h1 : (i 1).val = (x 1).val) :
    (iblk0 V c 1 t : Vec Ideal S2000x128 .f32) x = (V c (Pipeline.arrRef spec0 1) : S50000x128.Idx → EReal) i := by
  obtain ⟨-, -, b0, b1, -, -, -, -, -, -, -, -⟩ := idx_facts0 t
  unfold iblk0
  rw [View.read_apply]
  show (V c (Pipeline.arrRef spec0 1) : S50000x128.Idx → EReal) _ = _
  refine congrArg (V c (Pipeline.arrRef spec0 1) : S50000x128.Idx → EReal) ?_
  funext a
  apply Fin.ext
  match a with
  | ⟨0, _⟩ => show win0_1.index t (0 : Fin 2) * 2000 + 1 * (x 0).val = (i 0).val; rw [b0, h0]; omega
  | ⟨1, _⟩ => show win0_1.index t (1 : Fin 2) * 128 + 1 * (x 1).val = (i 1).val; rw [b1, h1]; omega

/-- The first weight's block at every point is the weight array. -/
theorem iblk0_2_apply (c : Dev nD) (t : Fin cfg0.N) (x : S128x256.Idx) (i : S128x256.Idx)
    (h0 : (i 0).val = (x 0).val) (h1 : (i 1).val = (x 1).val) :
    (iblk0 V c 2 t : Vec Ideal S128x256 .f32) x = (V c (Pipeline.arrRef spec0 2) : S128x256.Idx → EReal) i := by
  obtain ⟨-, -, -, -, c0, c1, -, -, -, -, -, -⟩ := idx_facts0 t
  unfold iblk0
  rw [View.read_apply]
  show (V c (Pipeline.arrRef spec0 2) : S128x256.Idx → EReal) _ = _
  refine congrArg (V c (Pipeline.arrRef spec0 2) : S128x256.Idx → EReal) ?_
  funext a
  apply Fin.ext
  match a with
  | ⟨0, _⟩ => show win0_2.index t (0 : Fin 2) * 128 + 1 * (x 0).val = (i 0).val; rw [c0, h0]; omega
  | ⟨1, _⟩ => show win0_2.index t (1 : Fin 2) * 256 + 1 * (x 1).val = (i 1).val; rw [c1, h1]; omega

/-- The second weight's block at every point is the weight array. -/
theorem iblk0_3_apply (c : Dev nD) (t : Fin cfg0.N) (x : S128x256.Idx) (i : S128x256.Idx)
    (h0 : (i 0).val = (x 0).val) (h1 : (i 1).val = (x 1).val) :
    (iblk0 V c 3 t : Vec Ideal S128x256 .f32) x = (V c (Pipeline.arrRef spec0 3) : S128x256.Idx → EReal) i := by
  obtain ⟨-, -, -, -, -, -, d0, d1, -, -, -, -⟩ := idx_facts0 t
  unfold iblk0
  rw [View.read_apply]
  show (V c (Pipeline.arrRef spec0 3) : S128x256.Idx → EReal) _ = _
  refine congrArg (V c (Pipeline.arrRef spec0 3) : S128x256.Idx → EReal) ?_
  funext a
  apply Fin.ext
  match a with
  | ⟨0, _⟩ => show win0_3.index t (0 : Fin 2) * 128 + 1 * (x 0).val = (i 0).val; rw [d0, h0]; omega
  | ⟨1, _⟩ => show win0_3.index t (1 : Fin 2) * 256 + 1 * (x 1).val = (i 1).val; rw [d1, h1]; omega

/-- The bias's block at every point is the one-row bias array. -/
theorem iblk0_4_apply (c : Dev nD) (t : Fin cfg0.N) (x : S1x256.Idx) (i : S1x256.Idx)
    (h0 : (i 0).val = (x 0).val) (h1 : (i 1).val = (x 1).val) :
    (iblk0 V c 4 t : Vec Ideal S1x256 .f32) x = (V c (Pipeline.arrRef spec0 4) : S1x256.Idx → EReal) i := by
  obtain ⟨-, -, -, -, -, -, -, -, f0, f1, -, -⟩ := idx_facts0 t
  unfold iblk0
  rw [View.read_apply]
  show (V c (Pipeline.arrRef spec0 4) : S1x256.Idx → EReal) _ = _
  refine congrArg (V c (Pipeline.arrRef spec0 4) : S1x256.Idx → EReal) ?_
  funext a
  apply Fin.ext
  match a with
  | ⟨0, _⟩ => show win0_4.index t (0 : Fin 2) * 1 + 1 * (x 0).val = (i 0).val; rw [f0, h0]; omega
  | ⟨1, _⟩ => show win0_4.index t (1 : Fin 2) * 256 + 1 * (x 1).val = (i 1).val; rw [f1, h1]; omega

/-- What point t writes back is block t of layer one of the arrays as the region finds them. -/
theorem flushed0_5_eq (c : Dev nD) (t : Fin cfg0.N) :
    (dat0 V c).flushed 5 t = ((cfg0.win 5).blk t).view.read (Elt Ideal)
      (Cert.Spec.layer1 (V c (Pipeline.arrRef spec0 0)) (V c (Pipeline.arrRef spec0 1)) (V c (Pipeline.arrRef spec0 2))
        (V c (Pipeline.arrRef spec0 3)) (fun j => V c (Pipeline.arrRef spec0 4) (ix2 0 (j 0)))) := by
  show (cfg0.win 5).cut (grid0.coords t) ((dat0 V c).after 5 t) = _
  rw [after0_5]
  unfold out0_5
  rw [View.canon_unit_zero zero_off0]
  simp only [View.ld_unit_zero (S := S2000x128) zero_off0, View.ld_unit_zero (S := S128x256) zero_off0,
    View.ld_unit_zero (S := S1x256) zero_off0]
  obtain ⟨-, -, -, -, -, -, -, -, -, -, g0, g1⟩ := idx_facts0 t
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.layer1 (N := 50000) (K := 128) (C := 256) (V c (Pipeline.arrRef spec0 0)) (V c (Pipeline.arrRef spec0 1))
        (V c (Pipeline.arrRef spec0 2)) (V c (Pipeline.arrRef spec0 3)) (fun j => V c (Pipeline.arrRef spec0 4) (ix2 0 (j 0)))
        (((cfg0.win 5).blk t).view.emb (ix2 p q))
  refine (k0_pay1_apply _ _ _ _ _ p q).trans ?_
  unfold Cert.Spec.layer1 Cert.Spec.mm
  have hr : ((((cfg0.win 5).blk t).view.emb (ix2 p q)) 0).val = t.val * 2000 + p.val := by
    show win0_5.index t (0 : Fin 2) * 2000 + 1 * p.val = t.val * 2000 + p.val
    rw [g0]; omega
  have hc : ((((cfg0.win 5).blk t).view.emb (ix2 p q)) 1).val = q.val := by
    show win0_5.index t (1 : Fin 2) * 256 + 1 * q.val = q.val
    rw [g1]; omega
  refine congrArg (fun z : EReal => max z 0) ?_
  refine congrArg₂ (· + ·) (congrArg₂ (· + ·) ?_ ?_) ?_
  · exact Finset.sum_congr rfl fun k _ =>
      congrArg₂ (· * ·) (iblk0_0_apply V c t _ _ hr rfl) (iblk0_2_apply V c t _ _ rfl hc)
  · exact Finset.sum_congr rfl fun k _ =>
      congrArg₂ (· * ·) (iblk0_1_apply V c t _ _ hr rfl) (iblk0_3_apply V c t _ _ rfl hc)
  · exact iblk0_4_apply V c t _ _ rfl hc

/-- An index of the output array is in point t's block iff each coordinate is in the block's range on its axis. -/
theorem mem_blk0_5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v19).slice (win0_5.rect t)).set ↔ _
  rw [View.set_slice_whole, Rect.mem_set_unit]
  exact Iff.rfl

/-- Every index of the output array is in the block of the point its row divided by 2000 names. -/
theorem cover0_5_all (i : S50000x256.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  have ht : t.val = (i 0).val / 2000 := rfl
  obtain ⟨-, -, -, -, -, -, -, -, -, -, g0, g1⟩ := idx_facts0 t
  refine ⟨t, flush0_5 t, ?_⟩
  rw [mem_blk0_5]
  intro a
  match a with
  | ⟨0, _⟩ =>
    show win0_5.index t (0 : Fin 2) * 2000 ≤ (i 0).val ∧ (i 0).val < win0_5.index t (0 : Fin 2) * 2000 + 2000
    rw [g0, ht]; omega
  | ⟨1, _⟩ =>
    show win0_5.index t (1 : Fin 2) * 256 ≤ (i 1).val ∧ (i 1).val < win0_5.index t (1 : Fin 2) * 256 + 256
    rw [g1]; omega

/-- THE OUTPUT ARRAY after the region: layer one of the arrays as the region finds them. -/
theorem final0_5 (c : Dev nD) : (Gen.dat0 V c).arrAt 5 cfg0.N
    = Cert.Spec.layer1 (V c (Pipeline.arrRef spec0 0)) (V c (Pipeline.arrRef spec0 1)) (V c (Pipeline.arrRef spec0 2))
        (V c (Pipeline.arrRef spec0 3)) (fun j => V c (Pipeline.arrRef spec0 4) (ix2 0 (j 0))) :=
  (dat0 V c).arrAt_eq_of_cover 5 _ (fun t _ => flushed0_5_eq V c t) (cover0_5_all)

end Cert.KernelIdeal.RegionValue

end
-- ==== Proof.Pay1.lean ====
/-
  The dense product kernel's stored value, read at one element: row p, column q of the block is the sum over the
  256 contracted positions of the row block's entry (p, k) times the weight's entry (k, q). The format changes on
  the way into the product are the identity on the extended reals, the reshape to the same shape is the identity,
  and a product accumulated into the zero array is the plain sum.
-/
import proofs.«160922_j50053548868188_2_alg».proof.Proof.Gen.KernelIdeal.Frame
import proofs.«160922_j50053548868188_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-! The operand indices of the [2000,256] by [256,128] contraction, coordinate by coordinate. -/

theorem dot1_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot1_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem dot1_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem dot1_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000,256] by [256,128] product into the zero array, at (p, q): the sum over the contracted axis. -/
theorem matmul1_apply {φ₁ φ₂ : FTy} (a : FVec Ideal S2000x256 φ₁) (b : FVec Ideal S256x128 φ₂) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  show FloatOps.matmul dot_S2000x256_S256x128_S2000x128_1_0_0_1_n_n none a b (constant (F := Ideal) S2000x128 .f32 0x00000000#32) (ix2 p q) = _
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact dot1_lhs_0 _ _
    | ⟨1, _⟩ => exact (dot1_lhs_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (dot1_rhs_0 _ _).trans hk
    | ⟨1, _⟩ => exact dot1_rhs_1 _ _)
  rw [el, er]

/-- The dense product kernel's stored block at (p, q). -/
theorem k1_pay1_apply (x0 : Vec Ideal S2000x256 .f32) (x1 : Vec Ideal S256x128 .f32) (p : Fin 2000) (q : Fin 128) :
    k1_pay1 (F := Ideal) x0 x1 (ix2 p q) = ∑ k : Fin 256, x0 (ix2 p k) * x1 (ix2 k q) := by
  unfold k1_pay1
  rw [matmul1_apply]
  refine Finset.sum_congr rfl fun k _ => ?_
  rw [truncf_apply, truncf_apply, shapeCast_self]

end Cert.KernelIdeal.RegionValue

end
-- ==== Proof.Region1.lean ====
/-
  The dense product region as one array: after its 25 grid points the output array [50000,128] holds the matrix
  product of the row-blocked input [50000,256] and the weight [256,128]. Point t writes back rows 2000 t to
  2000 t + 1999; the row block it reads is the same rows of the input, the weight is read whole; so what it writes
  is block t of the product. Every row r lies in the block of point r / 2000, hence the blocks cover the array.
-/
import proofs.«160922_j50053548868188_2_alg».proof.Proof.Gen.KernelIdeal.Frame
import proofs.«160922_j50053548868188_2_alg».proof.Proof.Spec
import proofs.«160922_j50053548868188_2_alg».proof.Proof.Pay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access. -/
theorem zero_off : (![0, 0] : Fin 2 → Nat) = fun _ => 0 := funext fun a => by fin_cases a <;> rfl

/-- The block indices at point t: the row-blocked windows are at block (t, 0), the weight at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point t holds rows 2000 t ... of the input array. -/
theorem iblk1_0_apply (c : Dev nD) (t : Fin cfg1.N) (x : S2000x256.Idx) (i : S50000x256.Idx)
    (h0 : (i 0).val = t.val * 2000 + (x 0).val) (h1 : (i 1).val = (x 1).val) :
    (iblk1 V c 0 t : Vec Ideal S2000x256 .f32) x = (V c (Pipeline.arrRef spec1 0) : S50000x256.Idx → EReal) i := by
  obtain ⟨e0, e1, -⟩ := idx_facts1 t
  unfold iblk1
  rw [View.read_apply]
  show (V c (Pipeline.arrRef spec1 0) : S50000x256.Idx → EReal) _ = _
  refine congrArg (V c (Pipeline.arrRef spec1 0) : S50000x256.Idx → EReal) ?_
  funext a
  apply Fin.ext
  match a with
  | ⟨0, _⟩ => show win1_0.index t (0 : Fin 2) * 2000 + 1 * (x 0).val = (i 0).val; rw [e0, h0]; omega
  | ⟨1, _⟩ => show win1_0.index t (1 : Fin 2) * 256 + 1 * (x 1).val = (i 1).val; rw [e1, h1]; omega

/-- The weight's block at every point is the weight array. -/
theorem iblk1_1_apply (c : Dev nD) (t : Fin cfg1.N) (x : S256x128.Idx) (i : S256x128.Idx)
    (h0 : (i 0).val = (x 0).val) (h1 : (i 1).val = (x 1).val) :
    (iblk1 V c 1 t : Vec Ideal S256x128 .f32) x = (V c (Pipeline.arrRef spec1 1) : S256x128.Idx → EReal) i := by
  obtain ⟨-, -, e2, e3, -⟩ := idx_facts1 t
  unfold iblk1
  rw [View.read_apply]
  show (V c (Pipeline.arrRef spec1 1) : S256x128.Idx → EReal) _ = _
  refine congrArg (V c (Pipeline.arrRef spec1 1) : S256x128.Idx → EReal) ?_
  funext a
  apply Fin.ext
  match a with
  | ⟨0, _⟩ => show win1_1.index t (0 : Fin 2) * 256 + 1 * (x 0).val = (i 0).val; rw [e2, h0]; omega
  | ⟨1, _⟩ => show win1_1.index t (1 : Fin 2) * 128 + 1 * (x 1).val = (i 1).val; rw [e3, h1]; omega

/-- What point t writes back is block t of the product of the two arrays as the region finds them. -/
theorem flushed1_2_eq (c : Dev nD) (t : Fin cfg1.N) :
    (dat1 V c).flushed 2 t = ((cfg1.win 2).blk t).view.read (Elt Ideal)
      (Cert.Spec.mm (V c (Pipeline.arrRef spec1 0)) (V c (Pipeline.arrRef spec1 1))) := by
  show (cfg1.win 2).cut (grid1.coords t) ((dat1 V c).after 2 t) = _
  rw [after1_2]
  unfold out1_2
  rw [View.canon_unit_zero zero_off]
  simp only [View.ld_unit_zero (S := S2000x256) zero_off, View.ld_unit_zero (S := S256x128) zero_off]
  obtain ⟨-, -, -, -, e4, e5⟩ := idx_facts1 t
  refine funext fun (j : S2000x128.Idx) => ?_
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = Cert.Spec.mm (N := 50000) (K := 256) (C := 128) (V c (Pipeline.arrRef spec1 0)) (V c (Pipeline.arrRef spec1 1))
        (((cfg1.win 2).blk t).view.emb (ix2 p q))
  refine (k1_pay1_apply _ _ p q).trans ?_
  unfold Cert.Spec.mm
  refine Finset.sum_congr rfl fun k _ => ?_
  refine congrArg₂ (· * ·) (iblk1_0_apply V c t _ _ ?_ ?_) (iblk1_1_apply V c t _ _ ?_ ?_)
  · show win1_2.index t (0 : Fin 2) * 2000 + 1 * p.val = t.val * 2000 + p.val
    rw [e4]; omega
  · rfl
  · rfl
  · show win1_2.index t (1 : Fin 2) * 128 + 1 * q.val = q.val
    rw [e5]; omega

/-- An index of the output array is in point t's block iff each coordinate is in the block's range on its axis. -/
theorem mem_blk1_2 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v20).slice (win1_2.rect t)).set ↔ _
  rw [View.set_slice_whole, Rect.mem_set_unit]
  exact Iff.rfl

/-- Every index of the output array is in the block of the point its row divided by 2000 names. -/
theorem cover1_2_all (i : S50000x128.Idx) :
    ∃ t : Fin cfg1.N, (cfg1.win 2).flush t = true ∧ i ∈ ((cfg1.win 2).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  have ht : t.val = (i 0).val / 2000 := rfl
  obtain ⟨-, -, -, -, e4, e5⟩ := idx_facts1 t
  refine ⟨t, flush1_2 t, ?_⟩
  rw [mem_blk1_2]
  intro a
  match a with
  | ⟨0, _⟩ =>
    show win1_2.index t (0 : Fin 2) * 2000 ≤ (i 0).val ∧ (i 0).val < win1_2.index t (0 : Fin 2) * 2000 + 2000
    rw [e4, ht]; omega
  | ⟨1, _⟩ =>
    show win1_2.index t (1 : Fin 2) * 128 ≤ (i 1).val ∧ (i 1).val < win1_2.index t (1 : Fin 2) * 128 + 128
    rw [e5]; omega

/-- THE OUTPUT ARRAY after the region: the matrix product of the input and the weight as the region finds them. -/
theorem final1_2 (c : Dev nD) : (Gen.dat1 V c).arrAt 2 cfg1.N
    = Cert.Spec.mm (V c (Pipeline.arrRef spec1 0)) (V c (Pipeline.arrRef spec1 1)) :=
  (dat1 V c).arrAt_eq_of_cover 2 _ (fun t _ => flushed1_2_eq V c t) (cover1_2_all)

end Cert.KernelIdeal.RegionValue

end
-- ==== Proof.KChain01.lean ====
/-
  The buffer contents at the boundaries of the first two regions. Layer one's region leaves its output array at
  layer one of the arrays it found and every other buffer as it found it; the dense product's region leaves its
  output array at the product of the arrays it found, its input array as it found it, and every other buffer as
  it found it.
-/
import proofs.«160922_j50053548868188_2_alg».proof.Proof.Region0
import proofs.«160922_j50053548868188_2_alg».proof.Proof.Region1

set_option maxRecDepth 16384

noncomputable section

namespace Cert.KernelIdeal.KChain

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RegionValue

variable (m : (ℓ : Loc nD τ sig) → Buf (Elt Ideal) ℓ) (ρ : Dev nD → PrngReg) (c : Dev nD)

/-- After layer one's region its output array holds layer one of the arrays the region found. -/
theorem W4_v19 : W4 m ρ c (Proc.devRef .tc main_v19)
    = Cert.Spec.layer1 (W3 m ρ c (Proc.devRef .tc main_arg0)) (W3 m ρ c (Proc.devRef .tc main_v17))
        (W3 m ρ c (Proc.devRef .tc main_arg7)) (W3 m ρ c (Proc.devRef .tc main_arg8))
        (fun j => W3 m ρ c (Proc.devRef .tc main_v18) (ix2 0 (j 0))) :=
  (W4_arr m ρ c 5).trans (final0_5 (V3 m ρ) c)

/-- Layer one's region leaves the buffers that are none of its arrays as it found them. -/
theorem W4_keep (b : Ref sig .tc)
    (hb : b ∈ [main_arg1, main_arg2, main_arg3, main_arg4, main_arg5, main_arg6, main_arg10, main_arg11, main_arg12,
      main_arg13, main_arg14, main_v3]) :
    W4 m ρ c (Proc.devRef .tc b) = W3 m ρ c (Proc.devRef .tc b) := by
  simp only [List.mem_cons, List.mem_nil_iff, or_false] at hb
  rcases hb with rfl | rfl | rfl | rfl | rfl | rfl | rfl | rfl | rfl | rfl | rfl | rfl <;>
    exact W4_of_ne m ρ c _ (by decide)

/-- After the dense product's region its output array holds the product of the arrays the region found. -/
theorem W5_v20 : W5 m ρ c (Proc.devRef .tc main_v20)
    = Cert.Spec.mm (W4 m ρ c (Proc.devRef .tc main_v19)) (W4 m ρ c (Proc.devRef .tc main_arg11)) :=
  (W5_arr m ρ c 2).trans (final1_2 (V4 m ρ) c)

/-- The dense product's region leaves its input array as it found it. -/
theorem W5_v19 : W5 m ρ c (Proc.devRef .tc main_v19) = W4 m ρ c (Proc.devRef .tc main_v19) :=
  (W5_arr m ρ c 0).trans (((dat1 (V4 m ρ) c).arrAt_in 0 rfl _).trans (A_eq1 (V4 m ρ) c 0))

/-- The dense product's region leaves the buffers that are none of its arrays as it found them. -/
theorem W5_keep (b : Ref sig .tc)
    (hb : b ∈ [main_arg1, main_arg2, main_arg3, main_arg4, main_arg5, main_arg6, main_arg10, main_arg12, main_arg13,
      main_arg14, main_v3]) :
    W5 m ρ c (Proc.devRef .tc b) = W4 m ρ c (Proc.devRef .tc b) := by
  simp only [List.mem_cons, List.mem_nil_iff, or_false] at hb
  rcases hb with rfl | rfl | rfl | rfl | rfl | rfl | rfl | rfl | rfl | rfl | rfl <;>
    exact W5_of_ne m ρ c _ (by decide)

end Cert.KernelIdeal.KChain

end
-- ==== Proof.Region2Pay.lean ====
/-
  Region 2's block arithmetic at an entry. The block of the second layer that one grid point computes is,
  entry by entry, the row of its 2000 x 256 input block times the column of the 256 x 128 weight, plus the entry
  of the projected neighbour mean's block, plus the bias's entry of that column; the block of the second output
  is the row of that layer block times the column of the 128 x 2 weight. A block product into a zero
  accumulator is the plain sum over the shared coordinate; rounding to the narrower float format is the
  identity on the extended reals; a cast to the same shape is the identity; the one-row bias broadcast down the
  rows reads its row 0.
-/
import proofs.«160922_j50053548868188_2_alg».proof.Proof.Gen.KernelIdeal.Frame
import proofs.«160922_j50053548868188_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue2

open Cert.KernelIdeal Cert.KernelIdeal.Gen Idealize.ShloMosaic Idealize.ShloMosaic.TcCoe Idealize.SL.Sem
open Idealize.ShloMosaic.ValueIdx
open Idealize.ShloMosaic.Pipeline (Dat)

theorem prodA_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem prodA_lhs1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem prodA_rhs0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem prodA_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block product into a zero accumulator, at an entry: the sum over the 256 shared coordinates. -/
theorem prodA_apply (a : FVec Ideal S2000x256 .bf16) (b : FVec Ideal S256x128 .bf16) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact prodA_lhs0 _ _
    | ⟨1, _⟩ => exact (prodA_lhs1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (prodA_rhs0 _ _).trans hk
    | ⟨1, _⟩ => exact prodA_rhs1 _ _)
  rw [el, er]

theorem prodB_lhs0 (i : S2000x2.Idx) (q : dot_S2000x128_S128x2_S2000x2_1_0_0_1_n_n.contr.Idx) : (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem prodB_lhs1 (i : S2000x2.Idx) (q : dot_S2000x128_S128x2_S2000x2_1_0_0_1_n_n.contr.Idx) : (dot_S2000x128_S128x2_S2000x2_1_0_0_1_n_n.lhsIdx i q 1).val = (q ⟨0, by decide⟩).val :=
  dot_S2000x128_S128x2_S2000x2_1_0_0_1_n_n.lhsIdx_val_of_single rfl i q
theorem prodB_rhs0 (i : S2000x2.Idx) (q : dot_S2000x128_S128x2_S2000x2_1_0_0_1_n_n.contr.Idx) : (dot_S2000x128_S128x2_S2000x2_1_0_0_1_n_n.rhsIdx i q 0).val = (q ⟨0, by decide⟩).val :=
  dot_S2000x128_S128x2_S2000x2_1_0_0_1_n_n.rhsIdx_val_of_single rfl i q
theorem prodB_rhs1 (i : S2000x2.Idx) (q : dot_S2000x128_S128x2_S2000x2_1_0_0_1_n_n.contr.Idx) : (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The block product into a zero accumulator, at an entry: the sum over the 128 shared coordinates. -/
theorem prodB_apply (a : FVec Ideal S2000x128 .bf16) (b : FVec Ideal S128x2 .bf16) (p : Fin 2000) (q : Fin 2) :
    matmul dot_S2000x128_S128x2_S2000x2_1_0_0_1_n_n none a b (constant (F := Ideal) S2000x2 .f32 0x00000000#32) (ix2 p q)
      = ∑ k : Fin 128, a (ix2 p k) * b (ix2 k q) := by
  simp only [matmul]
  rw [Ideal.matmul_constant_zero_apply, ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k := funext fun a => Fin.ext (by
    match a with
    | ⟨0, _⟩ => exact prodB_lhs0 _ _
    | ⟨1, _⟩ => exact (prodB_lhs1 _ _).trans hk)
  have er : dot_S2000x128_S128x2_S2000x2_1_0_0_1_n_n.rhsIdx (ix2 p q) ((contrEquiv1 dot_S2000x128_S128x2_S2000x2_1_0_0_1_n_n 128 rfl rfl).symm k) = ix2 k q := funext fun a => Fin.ext (by
    match a with
    | ⟨0, _⟩ => exact (prodB_rhs0 _ _).trans hk
    | ⟨1, _⟩ => exact prodB_rhs1 _ _)
  rw [el, er]

/-- The bias row broadcast down the 2000 rows reads row 0 of the bias. -/
theorem bias_apply (x3 : FVec Ideal S1x128 .f32) (p : Fin 2000) (q : Fin 128) :
    broadcastTo S2000x128 x3 broadcasts_S1x128_S2000x128 (ix2 p q) = x3 (ix2 0 q) :=
  broadcastTo_apply x3 broadcasts_S1x128_S2000x128 (ix2 p q) (ix2 0 q) (fun a => by
    match a with
    | ⟨0, _⟩ => rfl
    | ⟨1, _⟩ => rfl)

/-- The layer's block at an entry: the row of the first block times the column of the weight, plus the
    projected mean's entry, plus the bias's entry of that column. -/
theorem pay1_apply (x0 : Vec Ideal S2000x256 .f32) (x2 : Vec Ideal S256x128 .f32) (x1 : Vec Ideal S2000x128 .f32)
    (x3 : Vec Ideal S1x128 .f32) (p : Fin 2000) (q : Fin 128) :
    k2_pay1 x0 x2 x1 x3 (ix2 p q)
      = (∑ k : Fin 256, x0 (ix2 p k) * x2 (ix2 k q)) + x1 (ix2 p q) + x3 (ix2 0 q) := by
  unfold k2_pay1
  simp only [shapeCast_self]
  rw [addf_apply, addf_apply, prodA_apply, bias_apply]
  rfl

/-- The second output's block at an entry: the row of the layer's block times the column of the second weight. -/
theorem pay2_apply (x0 : Vec Ideal S2000x256 .f32) (x2 : Vec Ideal S256x128 .f32) (x1 : Vec Ideal S2000x128 .f32)
    (x3 : Vec Ideal S1x128 .f32) (x4 : Vec Ideal S128x2 .f32) (p : Fin 2000) (r : Fin 2) :
    k2_pay2 x0 x2 x1 x3 x4 (ix2 p r)
      = ∑ k : Fin 128, k2_pay1 x0 x2 x1 x3 (ix2 p k) * x4 (ix2 k r) := by
  unfold k2_pay2
  simp only [shapeCast_self]
  rw [prodB_apply]
  rfl

end Cert.KernelIdeal.RegionValue2

end
-- ==== Proof.Region2.lean ====
/-
  Region 2, from blocks to arrays. The region runs 25 grid points; point t reads rows 2000 t … 2000 t + 1999 of
  the 50000 x 256 table and of the projected neighbour mean, the two weights and the bias whole, and writes rows
  2000 t … 2000 t + 1999 of its two outputs. Entry by entry the first output's block is the second layer
  (table times weight, plus mean, plus bias) at the block's rows, and the second output's block is that layer's
  rows times the 128 x 2 weight. The 25 blocks of 2000 rows cover all 50000 rows (row r lies in block r / 2000),
  so each output array ends as one function of the arrays the region finds.
-/
import proofs.«160922_j50053548868188_2_alg».proof.Proof.Gen.KernelIdeal.Frame
import proofs.«160922_j50053548868188_2_alg».proof.Proof.Spec
import proofs.«160922_j50053548868188_2_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps, decided over the 25 grid points: the row-blocked windows sit at block (t, 0), the
    whole-array windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- A grid point's number is below 25. -/
theorem pt_lt (t : Fin cfg2.N) : t.val < 25 := lt_of_lt_of_eq t.isLt N_2

/-! ## The arrays the region finds, as arrays of extended reals -/

/-- The 50000 x 256 table. -/
abbrev A0 (c : Dev nD) : Cert.Spec.Arr 50000 256 := V c (Pipeline.arrRef spec2 0)
/-- The projected neighbour mean. -/
abbrev A1 (c : Dev nD) : Cert.Spec.Arr 50000 128 := V c (Pipeline.arrRef spec2 1)
/-- The 256 x 128 weight. -/
abbrev A2 (c : Dev nD) : Cert.Spec.Arr 256 128 := V c (Pipeline.arrRef spec2 2)
/-- The bias as one row. -/
abbrev A3 (c : Dev nD) : Cert.Spec.Arr 1 128 := V c (Pipeline.arrRef spec2 3)
/-- The 128 x 2 weight. -/
abbrev A4 (c : Dev nD) : Cert.Spec.Arr 128 2 := V c (Pipeline.arrRef spec2 4)

/-! ## Each input window's block at a point, as entries of the window's array

Window 0 (the table) and window 1 (the projected neighbour mean) are cut into 25 blocks of 2000 rows: block t
holds rows 2000 t … 2000 t + 1999. Windows 2, 3, 4 (the two weights and the bias row) are whole. -/

theorem blk0_apply (c : Dev nD) (t : Fin cfg2.N) (x : S2000x256.Idx) (i : S50000x256.Idx)
    (h0 : (i 0).val = 2000 * t.val + (x 0).val) (h1 : (i 1).val = (x 1).val) :
    (iblk2 V c 0 t : Vec Ideal S2000x256 .f32) x = A0 V c i := by
  obtain ⟨a0, a1, b0, b1, c0, c1, d0, d1, e0, e1, -⟩ := idx_facts t
  unfold iblk2
  rw [View.read_apply]
  show A0 V c _ = _
  congr 1
  funext a
  apply Fin.ext
  match a with
  | ⟨0, _⟩ => show win2_0.index t 0 * 2000 + 1 * (x 0).val = (i 0).val; rw [a0, h0]; omega
  | ⟨1, _⟩ => show win2_0.index t 1 * 256 + 1 * (x 1).val = (i 1).val; rw [a1, h1]; omega

theorem blk1_apply (c : Dev nD) (t : Fin cfg2.N) (x : S2000x128.Idx) (i : S50000x128.Idx)
    (h0 : (i 0).val = 2000 * t.val + (x 0).val) (h1 : (i 1).val = (x 1).val) :
    (iblk2 V c 1 t : Vec Ideal S2000x128 .f32) x = A1 V c i := by
  obtain ⟨a0, a1, b0, b1, c0, c1, d0, d1, e0, e1, -⟩ := idx_facts t
  unfold iblk2
  rw [View.read_apply]
  show A1 V c _ = _
  congr 1
  funext a
  apply Fin.ext
  match a with
  | ⟨0, _⟩ => show win2_1.index t 0 * 2000 + 1 * (x 0).val = (i 0).val; rw [b0, h0]; omega
  | ⟨1, _⟩ => show win2_1.index t 1 * 128 + 1 * (x 1).val = (i 1).val; rw [b1, h1]; omega

theorem blk2_apply (c : Dev nD) (t : Fin cfg2.N) (x : S256x128.Idx) (i : S256x128.Idx)
    (h0 : (i 0).val = (x 0).val) (h1 : (i 1).val = (x 1).val) :
    (iblk2 V c 2 t : Vec Ideal S256x128 .f32) x = A2 V c i := by
  obtain ⟨a0, a1, b0, b1, c0, c1, d0, d1, e0, e1, -⟩ := idx_facts t
  unfold iblk2
  rw [View.read_apply]
  show A2 V c _ = _
  congr 1
  funext a
  apply Fin.ext
  match a with
  | ⟨0, _⟩ => show win2_2.index t 0 * 256 + 1 * (x 0).val = (i 0).val; rw [c0, h0]; omega
  | ⟨1, _⟩ => show win2_2.index t 1 * 128 + 1 * (x 1).val = (i 1).val; rw [c1, h1]; omega

theorem blk3_apply (c : Dev nD) (t : Fin cfg2.N) (x : S1x128.Idx) (i : S1x128.Idx)
    (h0 : (i 0).val = (x 0).val) (h1 : (i 1).val = (x 1).val) :
    (iblk2 V c 3 t : Vec Ideal S1x128 .f32) x = A3 V c i := by
  obtain ⟨a0, a1, b0, b1, c0, c1, d0, d1, e0, e1, -⟩ := idx_facts t
  unfold iblk2
  rw [View.read_apply]
  show A3 V c _ = _
  congr 1
  funext a
  apply Fin.ext
  match a with
  | ⟨0, _⟩ => show win2_3.index t 0 * 1 + 1 * (x 0).val = (i 0).val; rw [d0, h0]; omega
  | ⟨1, _⟩ => show win2_3.index t 1 * 128 + 1 * (x 1).val = (i 1).val; rw [d1, h1]; omega

theorem blk4_apply (c : Dev nD) (t : Fin cfg2.N) (x : S128x2.Idx) (i : S128x2.Idx)
    (h0 : (i 0).val = (x 0).val) (h1 : (i 1).val = (x 1).val) :
    (iblk2 V c 4 t : Vec Ideal S128x2 .f32) x = A4 V c i := by
  obtain ⟨a0, a1, b0, b1, c0, c1, d0, d1, e0, e1, -⟩ := idx_facts t
  unfold iblk2
  rw [View.read_apply]
  show A4 V c _ = _
  congr 1
  funext a
  apply Fin.ext
  match a with
  | ⟨0, _⟩ => show win2_4.index t 0 * 128 + 1 * (x 0).val = (i 0).val; rw [e0, h0]; omega
  | ⟨1, _⟩ => show win2_4.index t 1 * 2 + 1 * (x 1).val = (i 1).val; rw [e1, h1]; omega

/-! ## The second layer, block by block -/

/-- The second layer of the arrays the region finds: the table times the weight, plus the projected neighbour
    mean, plus the bias. -/
abbrev L2 (c : Dev nD) : Cert.Spec.Arr 50000 128 :=
  Cert.Spec.layer2 (A0 V c) (A1 V c) (A2 V c) (fun j => A3 V c (ix2 0 (j 0)))

/-- What point t computes for its layer block, at row p and column q, is the layer at row 2000 t + p. -/
theorem layer_blk (c : Dev nD) (t : Fin cfg2.N) (p : Fin 2000) (q : Fin 128) (r : Fin 50000)
    (hr : r.val = 2000 * t.val + p.val) :
    k2_pay1 (iblk2 V c 0 t) (iblk2 V c 2 t) (iblk2 V c 1 t) (iblk2 V c 3 t) (ix2 p q) = L2 V c (ix2 r q) := by
  refine (pay1_apply _ _ _ _ p q).trans ?_
  show _ = (∑ k : Fin 256, A0 V c (ix2 r k) * A2 V c (ix2 k q)) + A1 V c (ix2 r q) + A3 V c (ix2 0 q)
  rw [blk1_apply V c t (ix2 p q) (ix2 r q) hr rfl, blk3_apply V c t (ix2 0 q) (ix2 0 q) rfl rfl]
  refine congrArg (fun s => s + _ + _) (Finset.sum_congr rfl fun k _ => ?_)
  rw [blk0_apply V c t (ix2 p k) (ix2 r k) hr rfl, blk2_apply V c t (ix2 k q) (ix2 k q) rfl rfl]

/-! ## Output window 5: the second layer -/

/-- Where entry (p, q) of output window 5's block at point t sits in the array: row 2000 t + p, column q. -/
theorem emb5 (t : Fin cfg2.N) (p : Fin 2000) (q : Fin 128) (r : Fin 50000) (hr : r.val = 2000 * t.val + p.val) :
    ((cfg2.win 5).blk t).view.emb (ix2 p q) = (ix2 r q : S50000x128.Idx) := by
  obtain ⟨-, -, -, -, -, -, -, -, -, -, f0, f1, g0, g1⟩ := idx_facts t
  funext a
  apply Fin.ext
  match a with
  | ⟨0, _⟩ => show win2_5.index t 0 * 2000 + 1 * p.val = r.val; rw [f0, hr]; omega
  | ⟨1, _⟩ => show win2_5.index t 1 * 128 + 1 * q.val = q.val; rw [f1]; omega

/-- What point t writes back to output window 5 is block t of the second layer. -/
theorem flushed5_eq (c : Dev nD) (t : Fin cfg2.N) :
    (dat2 V c).flushed 5 t = ((cfg2.win 5).blk t).view.read (Elt Ideal) (L2 V c) := by
  show (cfg2.win 5).cut (grid2.coords t) ((dat2 V c).after 5 t) = _
  rw [after2_5]
  unfold out2_5
  rw [View.canon_unit_zero zero_off]
  simp only [View.ld_unit_zero (S := S2000x256) zero_off, View.ld_unit_zero (S := S256x128) zero_off,
    View.ld_unit_zero (S := S2000x128) zero_off, View.ld_unit_zero (S := S1x128) zero_off, View.ld_unit_zero (S := S128x2) zero_off]
  funext j
  obtain ⟨p, q, rfl⟩ : ∃ (p : Fin 2000) (q : Fin 128), j = ix2 p q := ⟨j 0, j 1, eq_ix2 j⟩
  have hlt := pt_lt t
  have hp := p.isLt
  rw [View.read_apply, emb5 t p q ⟨2000 * t.val + p.val, by omega⟩ rfl]
  exact layer_blk V c t p q _ rfl

/-- An index of the array is in point t's block iff each coordinate is in the block's range on its axis. -/
theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v39_0).slice (win2_5.rect t)).set ↔ _
  rw [View.set_slice_whole, Rect.mem_set_unit]
  exact Iff.rfl

/-- Every index of the array is in some point's block: row r is in block r / 2000, since 25 x 2000 = 50000. -/
theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, f0, f1, g0, g1⟩ := idx_facts t
  refine ⟨t, flush2_5 t, ?_⟩
  rw [mem_blk5]
  intro a
  match a with
  | ⟨0, _⟩ => show win2_5.index t 0 * 2000 ≤ (i 0).val ∧ (i 0).val < win2_5.index t 0 * 2000 + 2000; rw [f0, ht]; omega
  | ⟨1, _⟩ => show win2_5.index t 1 * 128 ≤ (i 1).val ∧ (i 1).val < win2_5.index t 1 * 128 + 128; rw [f1]; omega

/-- THE ARRAY window 5 ends holding: the second layer of the arrays the region finds. -/
theorem final2_5 (c : Dev nD) : (Gen.dat2 V c).arrAt 5 cfg2.N
    = Cert.Spec.layer2 (V c (Pipeline.arrRef spec2 0)) (V c (Pipeline.arrRef spec2 1)) (V c (Pipeline.arrRef spec2 2)) (fun j => V c (Pipeline.arrRef spec2 3) (ix2 0 (j 0))) :=
  (dat2 V c).arrAt_eq_of_cover 5 (L2 V c) (fun t _ => flushed5_eq V c t) cover5

/-! ## Output window 6: the second layer times the 128 x 2 weight -/

/-- Where entry (p, q) of output window 6's block at point t sits in the array: row 2000 t + p, column q. -/
theorem emb6 (t : Fin cfg2.N) (p : Fin 2000) (q : Fin 2) (r : Fin 50000) (hr : r.val = 2000 * t.val + p.val) :
    ((cfg2.win 6).blk t).view.emb (ix2 p q) = (ix2 r q : S50000x2.Idx) := by
  obtain ⟨-, -, -, -, -, -, -, -, -, -, f0, f1, g0, g1⟩ := idx_facts t
  funext a
  apply Fin.ext
  match a with
  | ⟨0, _⟩ => show win2_6.index t 0 * 2000 + 1 * p.val = r.val; rw [g0, hr]; omega
  | ⟨1, _⟩ => show win2_6.index t 1 * 2 + 1 * q.val = q.val; rw [g1]; omega

/-- What point t writes back to output window 6 is block t of the second layer times the 128 x 2 weight. -/
theorem flushed6_eq (c : Dev nD) (t : Fin cfg2.N) :
    (dat2 V c).flushed 6 t = ((cfg2.win 6).blk t).view.read (Elt Ideal) (Cert.Spec.mm (L2 V c) (A4 V c)) := by
  show (cfg2.win 6).cut (grid2.coords t) ((dat2 V c).after 6 t) = _
  rw [after2_6]
  unfold out2_6
  rw [View.canon_unit_zero zero_off]
  simp only [View.ld_unit_zero (S := S2000x256) zero_off, View.ld_unit_zero (S := S256x128) zero_off,
    View.ld_unit_zero (S := S2000x128) zero_off, View.ld_unit_zero (S := S1x128) zero_off, View.ld_unit_zero (S := S128x2) zero_off]
  funext j
  obtain ⟨p, q, rfl⟩ : ∃ (p : Fin 2000) (q : Fin 2), j = ix2 p q := ⟨j 0, j 1, eq_ix2 j⟩
  have hlt := pt_lt t
  have hp := p.isLt
  rw [View.read_apply, emb6 t p q ⟨2000 * t.val + p.val, by omega⟩ rfl]
  refine (pay2_apply _ _ _ _ _ p q).trans ?_
  show _ = ∑ k : Fin 128, L2 V c (ix2 ⟨2000 * t.val + p.val, by omega⟩ k) * A4 V c (ix2 k q)
  refine Finset.sum_congr rfl fun k _ => ?_
  rw [layer_blk V c t p k ⟨2000 * t.val + p.val, by omega⟩ rfl, blk4_apply V c t (ix2 k q) (ix2 k q) rfl rfl]

/-- An index of the array is in point t's block iff each coordinate is in the block's range on its axis. -/
theorem mem_blk6 (t : Fin cfg2.N) (i : S50000x2.Idx) :
    i ∈ ((cfg2.win 6).blk t).view.set ↔ ∀ a : Fin 2, win2_6.index t a * S2000x2.size a ≤ (i a).val ∧ (i a).val < win2_6.index t a * S2000x2.size a + S2000x2.size a := by
  show i ∈ ((View.whole main_v39_1).slice (win2_6.rect t)).set ↔ _
  rw [View.set_slice_whole, Rect.mem_set_unit]
  exact Iff.rfl

/-- Every index of the array is in some point's block: row r is in block r / 2000, since 25 x 2000 = 50000. -/
theorem cover6 (i : S50000x2.Idx) : ∃ t : Fin cfg2.N, (cfg2.win 6).flush t = true ∧ i ∈ ((cfg2.win 6).blk t).view.set := by
  have hi0 : (i 0).val < 50000 := (i 0).isLt
  have hi1 : (i 1).val < 2 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, f0, f1, g0, g1⟩ := idx_facts t
  refine ⟨t, flush2_6 t, ?_⟩
  rw [mem_blk6]
  intro a
  match a with
  | ⟨0, _⟩ => show win2_6.index t 0 * 2000 ≤ (i 0).val ∧ (i 0).val < win2_6.index t 0 * 2000 + 2000; rw [g0, ht]; omega
  | ⟨1, _⟩ => show win2_6.index t 1 * 2 ≤ (i 1).val ∧ (i 1).val < win2_6.index t 1 * 2 + 2; rw [g1]; omega

/-- THE ARRAY window 6 ends holding: the second layer times the 128 x 2 weight. -/
theorem final2_6 (c : Dev nD) : (Gen.dat2 V c).arrAt 6 cfg2.N
    = Cert.Spec.mm (Cert.Spec.layer2 (V c (Pipeline.arrRef spec2 0)) (V c (Pipeline.arrRef spec2 1)) (V c (Pipeline.arrRef spec2 2)) (fun j => V c (Pipeline.arrRef spec2 3) (ix2 0 (j 0)))) (V c (Pipeline.arrRef spec2 4)) :=
  (dat2 V c).arrAt_eq_of_cover 6 (Cert.Spec.mm (L2 V c) (A4 V c)) (fun t _ => flushed6_eq V c t) cover6

end Cert.KernelIdeal.RegionValue2

end
-- ==== Proof.KChain2.lean ====
/-
  The buffer contents across region 2. At the region's exit its second output array holds the second layer of
  the arrays found at entry times the 128 x 2 weight, and a buffer that is none of the region's seven arrays holds
  what it held at entry.
-/
import proofs.«160922_j50053548868188_2_alg».proof.Proof.Region2

set_option maxRecDepth 16384

noncomputable section

namespace Cert.KernelIdeal.KChain2

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The region's second output at its exit: the second layer of the entry arrays times the 128 x 2 weight. -/
theorem W9_uv : W9 m ρ c (Proc.devRef .tc main_v39_1)
    = Cert.Spec.mm (Cert.Spec.layer2 (W8 m ρ c (Proc.devRef .tc main_v19)) (W8 m ρ c (Proc.devRef .tc main_v34))
        (W8 m ρ c (Proc.devRef .tc main_arg10)) (fun j => W8 m ρ c (Proc.devRef .tc main_v38) (ix2 0 (j 0))))
      (W8 m ρ c (Proc.devRef .tc main_v37)) :=
  (W9_arr m ρ c 6).trans (RegionValue2.final2_6 (V8 m ρ) c)

/-- None of the region's seven arrays is one of these five argument buffers. -/
theorem not_window : ∀ w : Fin cfg2.W,
    Pipeline.arrRef spec2 w ∉ [main_arg3, main_arg4, main_arg5, main_arg6, main_arg14] := by decide

/-- So each of them holds at the region's exit what it held at entry. -/
theorem W9_keep (b : Ref sig .tc) (hb : b ∈ [main_arg3, main_arg4, main_arg5, main_arg6, main_arg14]) :
    W9 m ρ c (Proc.devRef .tc b) = W8 m ρ c (Proc.devRef .tc b) :=
  W9_of_ne m ρ c b fun w e => not_window w (e ▸ hb)

end Cert.KernelIdeal.KChain2

end
-- ==== Proof.LibRowOps.lean ====
/-
  ROW GATHER AND ROW SCATTER-ADD READ AT AN INDEX.

  A table of N rows and C columns is gathered by a column of E index words (row e of the result is the table's row
  at the e-th word, read as a signed integer and clamped into [0, N - 1]), and a table of E update rows is
  scatter-added into a table of N rows by such a column (row n of the result is row n of the table plus the sum of
  the update rows whose word, read as a signed integer and not clamped, is n; a word outside [0, N - 1] drops its row).
-/
import Idealize.ShloMosaic.Lib.ValueIdx

noncomputable section

open scoped BigOperators

namespace RowOps

open Idealize.ShloMosaic Idealize.ShloMosaic.ValueIdx

/-- The dimension numbers of a row gather: operand [N, C], start indices [E, 1], result [E, C]; axis 0 is collapsed
    and indexed, axis 1 is the offset axis carried whole. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {N E C w : Nat}
  (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the row axis the operand coordinate of result (e, k) is the e-th word read signed, clamped into [0, N - 1]. -/
theorem gather_rows_coord0 :
    (rowGatherDims N E C wf).start (ix2 e k) idx (0 : Fin 2) + (rowGatherDims N E C wf).batchCoord (ix2 e k) (0 : Fin 2)
      + (rowGatherDims N E C wf).offCoord (ix2 e k) (0 : Fin 2) = min (idx (ix2 e 0)).toInt.toNat (N - 1) := by
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e k)
      ⟨List.idxOf (0 : Fin 2) (rowGatherDims N E C wf).startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand coordinate of result (e, k) is k. -/
theorem gather_rows_coord1 :
    (rowGatherDims N E C wf).start (ix2 e k) idx (1 : Fin 2) + (rowGatherDims N E C wf).batchCoord (ix2 e k) (1 : Fin 2)
      + (rowGatherDims N E C wf).offCoord (ix2 e k) (1 : Fin 2) = k.val := by
  rw [GatherDims.batchCoord_eq_zero _ _ _ List.not_mem_nil]
  have hst : (rowGatherDims N E C wf).start (ix2 e k) idx (1 : Fin 2) = 0 := by
    unfold GatherDims.start
    rw [dif_neg (show (1 : Fin 2) ∉ ([0] : List (Fin 2)) by decide)]
  have hoff : (rowGatherDims N E C wf).offCoord (ix2 e k) (1 : Fin 2) = k.val := by
    rfl
  rw [hst, hoff]
  simp

end Gather

/-- The row gather at (e, k): the table at row min (toNat of the e-th word read signed) (N - 1), column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ => exact gather_rows_coord0 wf idx e k
  | ⟨1, _⟩ => exact gather_rows_coord1 wf idx e k

/-- The dimension numbers of a row scatter: operand [N, C], scatter indices [E, 1], updates [E, C]; axis 0 is the
    inserted and indexed axis, axis 1 the window axis carried whole. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update (e, k) starts at the e-th word read signed (not clamped). -/
theorem scatter_rows_start0 :
    (rowScatterDims N E C wf).start (ix2 e k) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window of every update starts at 0. -/
theorem scatter_rows_start1 :
    (rowScatterDims N E C wf).start (ix2 e k) idx (1 : Fin 2) = 0 := by
  unfold ScatterDims.start
  rw [dif_neg (show (1 : Fin 2) ∉ ([0] : List (Fin 2)) by decide)]

/-- On the row axis the window coordinate of every update is 0. -/
theorem scatter_rows_window0 : (rowScatterDims N E C wf).window (ix2 e k) (0 : Fin 2) = 0 := by
  rfl

/-- On the column axis the window coordinate of update (e, k) is k. -/
theorem scatter_rows_window1 : (rowScatterDims N E C wf).window (ix2 e k) (1 : Fin 2) = k.val := by
  rfl

end Scatter

/-- An update lands on operand index i exactly when, on every axis, its window start plus its window coordinate is
    i's coordinate (an update leaving the operand on some axis lands nowhere). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have ha := h a
      rw [← hf]
      show _ = (((d.start j idx a + (d.window j a : Int)).toNat : Nat) : Int)
      omega
    · intro hf
      funext a
      refine Fin.ext ?_
      show (d.start j idx a + (d.window j a : Int)).toNat = (i a).val
      rw [hf a]
      omega
  · rename_i h
    constructor
    · intro hf
      cases hf
    · intro hf
      exfalso
      apply h
      intro a
      rw [hf a]
      have := (i a).isLt
      constructor <;> omega

/-- Update (e, k) lands on (n, k') exactly when the e-th word read signed is n and k = k'. -/
theorem resultIdx_rows {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (idx (ix2 e 0)).toInt = (n.val : Int) ∧ k = k' := by
  rw [resultIdx?_eq_some_iff]
  constructor
  · intro h
    have a0 : (rowScatterDims N E C wf).start (ix2 e k) idx (0 : Fin 2)
        + ((rowScatterDims N E C wf).window (ix2 e k) (0 : Fin 2) : Int) = (n.val : Int) := h (0 : Fin 2)
    have a1 : (rowScatterDims N E C wf).start (ix2 e k) idx (1 : Fin 2)
        + ((rowScatterDims N E C wf).window (ix2 e k) (1 : Fin 2) : Int) = (k'.val : Int) := h (1 : Fin 2)
    rw [scatter_rows_start0, scatter_rows_window0] at a0
    rw [scatter_rows_start1, scatter_rows_window1] at a1
    exact ⟨by omega, Fin.ext (by omega)⟩
  · rintro ⟨h0, rfl⟩ a
    match a with
    | ⟨0, _⟩ =>
      show (rowScatterDims N E C wf).start (ix2 e k) idx (0 : Fin 2)
        + ((rowScatterDims N E C wf).window (ix2 e k) (0 : Fin 2) : Int) = (n.val : Int)
      rw [scatter_rows_start0, scatter_rows_window0]
      omega
    | ⟨1, _⟩ =>
      show (rowScatterDims N E C wf).start (ix2 e k) idx (1 : Fin 2)
        + ((rowScatterDims N E C wf).window (ix2 e k) (1 : Fin 2) : Int) = (k.val : Int)
      rw [scatter_rows_start1, scatter_rows_window1]
      omega

/-- The row scatter-add at (n, k): the table's element plus the sum, over the update rows whose word read signed
    is n, of their element in column k. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k) + ∑ e ∈ Finset.univ.filter (fun e : Fin E => (idx (ix2 e 0)).toInt = (n.val : Int)),
          upd (ix2 e k) := by
  unfold Ideal.hostScatterAdd
  congr 1
  rw [Finset.sum_filter, Finset.sum_filter, sum_idx2]
  refine Finset.sum_congr rfl fun e _ => ?_
  simp only [resultIdx_rows]
  by_cases h : (idx (ix2 e 0)).toInt = (n.val : Int)
  · simp [h, Finset.sum_ite_eq']
  · simp [h]

end RowOps

end
-- ==== Proof.KHostA.lean ====
import proofs.«160922_j50053548868188_2_alg».proof.Proof.Gen.KernelIdeal.Launch
import proofs.«160922_j50053548868188_2_alg».proof.Proof.Gen.ReferenceIdeal.Read
import proofs.«160922_j50053548868188_2_alg».proof.Proof.Spec
import proofs.«160922_j50053548868188_2_alg».proof.Proof.LibRowOps
import Idealize.ShloMosaic.Lib.StableHlo.Run
import Idealize.ShloMosaic.PureOps.Ideal
import Idealize.ShloMosaic.Lib.ValueLayout
import Idealize.ShloMosaic.Lib.Pipeline.Value

noncomputable section

namespace Cert.KernelIdeal.KHost

open Cert.KernelIdeal Cert.KernelIdeal.Gen Idealize.ShloMosaic Idealize.ShloMosaic.TcCoe Idealize.ShloMosaic.StableHlo
open Idealize.SL.Sem Idealize.ShloMosaic.ValueIdx

/-- The fifteen argument buffers of the program. -/
abbrev argRefs : List (Ref sig .tc) := [main_arg0, main_arg1, main_arg2, main_arg3, main_arg4, main_arg5, main_arg6, main_arg7, main_arg8, main_arg9, main_arg10, main_arg11, main_arg12, main_arg13, main_arg14]

/-- The contents after the three host stretches that precede the first kernel region. -/
abbrev VA (Vx : Valuation τ sig (Elt Ideal)) : Valuation τ sig (Elt Ideal) :=
  after (hostOps0_2 (F := Ideal)) (after (hostOps0_1 (F := Ideal)) (after (hostOps0 (F := Ideal)) Vx))

/-! ## What each stretch leaves unchanged -/

/-- The buffers the stretch writes. -/
abbrev A0_W : List (Ref sig .tc) := [main_cst, main_v0, main_cst_0, main_v1, main_v2, main_v3, main_c, main_v4, main_v5, main_c_1, main_v6, main_v7, main_v8, main_v9, main_v10, main_cst_2, main_v11, main_v12, main_v13, main_cst_3]
/-- Every operation of the stretch writes inside that list. -/
theorem A0_writes : (hostOps0 (F := Ideal)).Forall fun op => op.writes ⊆ ((A0_W).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem A0_of (V : Valuation τ sig (Elt Ideal)) (r : Ref sig .tc) (h : r ∉ A0_W) :
    after (hostOps0 (F := Ideal)) V (Proc.devRef .tc r) = V (Proc.devRef .tc r) :=
  after_of_writes_sub _ V A0_writes h
/-- The buffers the stretch writes. -/
abbrev A1_W : List (Ref sig .tc) := [main_call0_v0, main_call0_v1, main_v14]
/-- Every operation of the stretch writes inside that list. -/
theorem A1_writes : (hostOps0_1 (F := Ideal)).Forall fun op => op.writes ⊆ ((A1_W).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem A1_of (V : Valuation τ sig (Elt Ideal)) (r : Ref sig .tc) (h : r ∉ A1_W) :
    after (hostOps0_1 (F := Ideal)) V (Proc.devRef .tc r) = V (Proc.devRef .tc r) :=
  after_of_writes_sub _ V A1_writes h
/-- The buffers the stretch writes. -/
abbrev A2_W : List (Ref sig .tc) := [main_v15, main_v16, main_v17, main_v18]
/-- Every operation of the stretch writes inside that list. -/
theorem A2_writes : (hostOps0_2 (F := Ideal)).Forall fun op => op.writes ⊆ ((A2_W).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem A2_of (V : Valuation τ sig (Elt Ideal)) (r : Ref sig .tc) (h : r ∉ A2_W) :
    after (hostOps0_2 (F := Ideal)) V (Proc.devRef .tc r) = V (Proc.devRef .tc r) :=
  after_of_writes_sub _ V A2_writes h

/-- A buffer none of the three stretches writes keeps its contents. -/
theorem A_of (Vx : Valuation τ sig (Elt Ideal)) (r : Ref sig .tc) (h0 : r ∉ A0_W) (h1 : r ∉ A1_W) (h2 : r ∉ A2_W) :
    VA Vx (Proc.devRef .tc r) = Vx (Proc.devRef .tc r) := by
  show after (hostOps0_2 (F := Ideal)) _ _ = _
  rw [A2_of _ r h2, A1_of _ r h1, A0_of _ r h0]

/-- No argument buffer is written by the three stretches. -/
theorem A_keep (Vx : Valuation τ sig (Elt Ideal)) (b : Ref sig .tc) (hb : b ∈ argRefs) :
    VA Vx (Proc.devRef .tc b) = Vx (Proc.devRef .tc b) :=
  A_of Vx b ((by decide : ∀ r ∈ argRefs, r ∉ A0_W) b hb) ((by decide : ∀ r ∈ argRefs, r ∉ A1_W) b hb)
    ((by decide : ∀ r ∈ argRefs, r ∉ A2_W) b hb)

/-! ## The first stretch: the summed neighbour rows, the raw count, the constant one -/

/-- The scatter-added gathered rows are the reference's. -/
theorem s0_v13 (Vx : Valuation τ sig (Elt Ideal)) :
    after (hostOps0 (F := Ideal)) Vx (Proc.devRef .tc main_v13)
      = Cert.ReferenceIdeal.Read.val_main_v9 (F := Ideal) (Vx (Proc.devRef .tc main_arg0))
          (Vx (Proc.devRef .tc main_arg1)) (Vx (Proc.devRef .tc main_arg2)) := by
  after_results_simp
  rfl

/-- The raw neighbour count is the reference's. -/
theorem s0_v3 (Vx : Valuation τ sig (Elt Ideal)) :
    after (hostOps0 (F := Ideal)) Vx (Proc.devRef .tc main_v3)
      = Cert.ReferenceIdeal.Read.val_main_v13 (F := Ideal) (Vx (Proc.devRef .tc main_arg2)) := by
  after_results_simp
  rfl

/-- The constant one is the reference's. -/
theorem s0_cst3 (Vx : Valuation τ sig (Elt Ideal)) :
    after (hostOps0 (F := Ideal)) Vx (Proc.devRef .tc main_cst_3)
      = Cert.ReferenceIdeal.Read.val_main_cst_3 (F := Ideal) := by
  after_results_simp
  rfl

/-! ## The second stretch: the count clipped below by one -/

/-- The clipped count after the stretch is the maximum of the broadcast constant and the raw count. -/
theorem s1_v14_raw (V : Valuation τ sig (Elt Ideal)) :
    after (hostOps0_1 (F := Ideal)) V (Proc.devRef .tc main_v14)
      = (maximumf (broadcastInDim S50000 ![] bcast_S_S50000 (id (V (Proc.devRef .tc main_cst_3) : FVec Ideal S_ .f32)))
          (V (Proc.devRef .tc main_v3) : FVec Ideal S50000 .f32) : FVec Ideal S50000 .f32) := by
  after_results_simp
  rfl

/-- From the raw count and the constant one, the clipped count is the reference's. -/
theorem s1_v14 (V : Valuation τ sig (Elt Ideal)) (x2 : (⟨S800000, .i32⟩ : BufTy).Contents (Elt Ideal))
    (h3 : V (Proc.devRef .tc main_v3) = Cert.ReferenceIdeal.Read.val_main_v13 (F := Ideal) x2)
    (hc : V (Proc.devRef .tc main_cst_3) = Cert.ReferenceIdeal.Read.val_main_cst_3 (F := Ideal)) :
    after (hostOps0_1 (F := Ideal)) V (Proc.devRef .tc main_v14)
      = Cert.ReferenceIdeal.Read.val_main_v14 (F := Ideal) x2 := by
  rw [s1_v14_raw, h3, hc]
  rfl

/-! ## The third stretch: the quotient, and the bias row -/

/-- From the summed rows and the clipped count, the quotient is the reference's neighbour mean. -/
theorem s2_v17 (V : Valuation τ sig (Elt Ideal)) (x0 : (⟨S50000x128, .f32⟩ : BufTy).Contents (Elt Ideal))
    (x1 x2 : (⟨S800000, .i32⟩ : BufTy).Contents (Elt Ideal))
    (h13 : V (Proc.devRef .tc main_v13) = Cert.ReferenceIdeal.Read.val_main_v9 (F := Ideal) x0 x1 x2)
    (h14 : V (Proc.devRef .tc main_v14) = Cert.ReferenceIdeal.Read.val_main_v14 (F := Ideal) x2) :
    after (hostOps0_2 (F := Ideal)) V (Proc.devRef .tc main_v17)
      = Cert.ReferenceIdeal.Read.val_main_v17 (F := Ideal) x0 x1 x2 := by
  after_results_simp
  rw [h13, h14]
  rfl

/-- The bias vector recast as a one-row matrix reads the vector. -/
theorem s2_v18 (V : Valuation τ sig (Elt Ideal)) (q : Fin 256) :
    (after (hostOps0_2 (F := Ideal)) V (Proc.devRef .tc main_v18) : FVec Ideal S1x256 .f32) (ix2 (0 : Fin 1) q)
      = (V (Proc.devRef .tc main_arg9) : FVec Ideal S256 .f32) (ix1 q) := by
  after_results_simp
  exact shapeCast_a_1a_apply _ _ (0 : Fin 1) q

/-! ## The three stretches together -/

/-- After the three stretches the first kernel region's neighbour-mean operand is the reference's neighbour mean of
    the feature table. -/
theorem A_v17 (Vx : Valuation τ sig (Elt Ideal)) :
    VA Vx (Proc.devRef .tc main_v17)
      = Cert.ReferenceIdeal.Read.val_main_v17 (F := Ideal) (Vx (Proc.devRef .tc main_arg0))
          (Vx (Proc.devRef .tc main_arg1)) (Vx (Proc.devRef .tc main_arg2)) :=
  s2_v17 _ _ _ _
    (by rw [A1_of _ main_v13 (by decide), s0_v13])
    (s1_v14 _ _ (by rw [s0_v3]) (by rw [s0_cst3]))

/-- After the three stretches the raw neighbour count is still the reference's. -/
theorem A_v3 (Vx : Valuation τ sig (Elt Ideal)) :
    VA Vx (Proc.devRef .tc main_v3)
      = Cert.ReferenceIdeal.Read.val_main_v13 (F := Ideal) (Vx (Proc.devRef .tc main_arg2)) := by
  show after (hostOps0_2 (F := Ideal)) _ _ = _
  rw [A2_of _ main_v3 (by decide), A1_of _ main_v3 (by decide), s0_v3]

/-- After the three stretches the one-row bias matrix reads the bias vector. -/
theorem A_v18 (Vx : Valuation τ sig (Elt Ideal)) (q : Fin 256) :
    (VA Vx (Proc.devRef .tc main_v18) : FVec Ideal S1x256 .f32) (ix2 (0 : Fin 1) q)
      = (Vx (Proc.devRef .tc main_arg9) : FVec Ideal S256 .f32) (ix1 q) :=
  (s2_v18 _ q).trans (by rw [A1_of _ main_arg9 (by decide), A0_of _ main_arg9 (by decide)])

end Cert.KernelIdeal.KHost

end
-- ==== Proof.KHostB.lean ====
/-
  The host operations between the dense product's region and layer two's region, read over any buffer contents they
  start from. They form the neighbourhood mean of the projected table (rows gathered by the wrapped source words,
  added per destination, divided by the count clipped below at one and laid along the row), the two halves of the
  scorer's weight column side by side as a two-column array, and the layer-two bias as one row. The mean is the same
  composition of the same operations as the reference's neighbourhood mean of a table, so the two are one term.
-/
import proofs.«160922_j50053548868188_2_alg».proof.Proof.Gen.KernelIdeal.Frame
import proofs.«160922_j50053548868188_2_alg».proof.Proof.Gen.ReferenceIdeal.Read
import proofs.«160922_j50053548868188_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.KHostB

open Idealize.ShloMosaic Idealize.ShloMosaic.TcCoe Idealize.ShloMosaic.ValueIdx Idealize.SL.Sem
open Idealize.ShloMosaic.StableHlo
open Cert.KernelIdeal Cert.KernelIdeal.Gen

/-- The contents after the three stretches of host operations, from the contents before them. -/
abbrev VB (Vx : Valuation τ sig (Elt Ideal)) : Valuation τ sig (Elt Ideal) :=
  after (hostOps2_2 (F := Ideal)) (after (hostOps2_1 (F := Ideal)) (after (hostOps2 (F := Ideal)) Vx))

/-! ## What each stretch leaves unchanged -/

/-- The buffers the stretch writes. -/
abbrev B0_W : List (Ref sig .tc) := [main_c_4, main_v21, main_v22, main_c_5, main_v23, main_v24, main_v25, main_v26, main_v27, main_cst_6, main_v28, main_v29, main_v30, main_cst_7]
/-- Every operation of the stretch writes inside that list. -/
theorem B0_writes : (hostOps2 (F := Ideal)).Forall fun op => op.writes ⊆ ((B0_W).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem B0_of (V : Valuation τ sig (Elt Ideal)) (r : Ref sig .tc) (h : r ∉ B0_W) :
    after (hostOps2 (F := Ideal)) V (Proc.devRef .tc r) = V (Proc.devRef .tc r) :=
  after_of_writes_sub _ V B0_writes h

/-- The buffers the stretch writes. -/
abbrev B1_W : List (Ref sig .tc) := [main_call1_v0, main_call1_v1, main_v31]
/-- Every operation of the stretch writes inside that list. -/
theorem B1_writes : (hostOps2_1 (F := Ideal)).Forall fun op => op.writes ⊆ ((B1_W).map (Proc.devRef (τ := τ) .tc)).toFinset := by
  simp only [hostOps2_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem B1_of (V : Valuation τ sig (Elt Ideal)) (r : Ref sig .tc) (h : r ∉ B1_W) :
    after (hostOps2_1 (F := Ideal)) V (Proc.devRef .tc r) = V (Proc.devRef .tc r) :=
  after_of_writes_sub _ V B1_writes h

/-- The buffers the stretch writes. -/
abbrev B2_W : List (Ref sig .tc) := [main_v32, main_v33, main_v34, main_v35, main_v36, main_v37, main_v38]
/-- Every operation of the stretch writes inside that list. -/
theorem B2_writes : (hostOps2_2 (F := Ideal)).Forall fun op => op.writes ⊆ ((B2_W).map (Proc.devRef (τ := τ) .tc)).toFinset := by
  simp only [hostOps2_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer outside that list keeps its contents through the stretch. -/
theorem B2_of (V : Valuation τ sig (Elt Ideal)) (r : Ref sig .tc) (h : r ∉ B2_W) :
    after (hostOps2_2 (F := Ideal)) V (Proc.devRef .tc r) = V (Proc.devRef .tc r) :=
  after_of_writes_sub _ V B2_writes h

/-- A buffer none of the three stretches writes keeps its contents. -/
theorem B_of (Vx : Valuation τ sig (Elt Ideal)) (r : Ref sig .tc) (h0 : r ∉ B0_W) (h1 : r ∉ B1_W) (h2 : r ∉ B2_W) :
    VB Vx (Proc.devRef .tc r) = Vx (Proc.devRef .tc r) := by
  show after (hostOps2_2 (F := Ideal)) _ _ = _
  rw [B2_of _ r h2, B1_of _ r h1, B0_of _ r h0]

/-- The buffers the later segments still read are written by none of the three stretches. -/
abbrev keptRefs : List (Ref sig .tc) := [main_v19, main_arg3, main_arg4, main_arg5, main_arg6, main_arg10, main_arg13, main_arg14]

theorem B_keep (Vx : Valuation τ sig (Elt Ideal)) (b : Ref sig .tc)
    (hb : b ∈ [main_v19, main_arg3, main_arg4, main_arg5, main_arg6, main_arg10, main_arg13, main_arg14]) :
    VB Vx (Proc.devRef .tc b) = Vx (Proc.devRef .tc b) :=
  B_of Vx b ((by decide : ∀ r ∈ keptRefs, r ∉ B0_W) b hb) ((by decide : ∀ r ∈ keptRefs, r ∉ B1_W) b hb)
    ((by decide : ∀ r ∈ keptRefs, r ∉ B2_W) b hb)

/-! ## The first stretch: the summed rows of the projected table, the constant one -/

/-- The projected table's rows gathered by the wrapped source words and added per destination are the reference's
    summed rows of that table. -/
theorem s0_v30 (Vx : Valuation τ sig (Elt Ideal)) :
    after (hostOps2 (F := Ideal)) Vx (Proc.devRef .tc main_v30)
      = Cert.ReferenceIdeal.Read.val_main_v9 (F := Ideal) (Vx (Proc.devRef .tc main_v20))
          (Vx (Proc.devRef .tc main_arg1)) (Vx (Proc.devRef .tc main_arg2)) := by
  after_results_simp
  rfl

/-- The constant one is the reference's. -/
theorem s0_cst7 (Vx : Valuation τ sig (Elt Ideal)) :
    after (hostOps2 (F := Ideal)) Vx (Proc.devRef .tc main_cst_7) = Cert.ReferenceIdeal.Read.val_main_cst_3 (F := Ideal) := by
  after_results_simp
  rfl

/-! ## The second stretch: the count clipped below by one -/

/-- The clipped count after the stretch is the maximum of the broadcast constant and the raw count. -/
theorem s1_v31_raw (V : Valuation τ sig (Elt Ideal)) :
    after (hostOps2_1 (F := Ideal)) V (Proc.devRef .tc main_v31)
      = (maximumf (broadcastInDim S50000 ![] bcast_S_S50000 (id (V (Proc.devRef .tc main_cst_7) : FVec Ideal S_ .f32)))
          (V (Proc.devRef .tc main_v3) : FVec Ideal S50000 .f32) : FVec Ideal S50000 .f32) := by
  after_results_simp
  rfl

/-- From the raw count and the constant one, the clipped count is the reference's. -/
theorem s1_v31 (V : Valuation τ sig (Elt Ideal)) (x2 : (⟨S800000, .i32⟩ : BufTy).Contents (Elt Ideal))
    (h3 : V (Proc.devRef .tc main_v3) = Cert.ReferenceIdeal.Read.val_main_v13 (F := Ideal) x2)
    (hc : V (Proc.devRef .tc main_cst_7) = Cert.ReferenceIdeal.Read.val_main_cst_3 (F := Ideal)) :
    after (hostOps2_1 (F := Ideal)) V (Proc.devRef .tc main_v31) = Cert.ReferenceIdeal.Read.val_main_v14 (F := Ideal) x2 := by
  rw [s1_v31_raw, h3, hc]
  rfl

/-! ## The third stretch: the quotient, the two-column weight, the bias row -/

/-- From the summed rows and the clipped count, the quotient is the reference's neighbourhood mean. -/
theorem s2_v34 (V : Valuation τ sig (Elt Ideal)) (x0 : (⟨S50000x128, .f32⟩ : BufTy).Contents (Elt Ideal))
    (x1 x2 : (⟨S800000, .i32⟩ : BufTy).Contents (Elt Ideal))
    (h30 : V (Proc.devRef .tc main_v30) = Cert.ReferenceIdeal.Read.val_main_v9 (F := Ideal) x0 x1 x2)
    (h31 : V (Proc.devRef .tc main_v31) = Cert.ReferenceIdeal.Read.val_main_v14 (F := Ideal) x2) :
    after (hostOps2_2 (F := Ideal)) V (Proc.devRef .tc main_v34) = Cert.ReferenceIdeal.Read.val_main_v17 (F := Ideal) x0 x1 x2 := by
  after_results_simp
  rw [h30, h31]
  rfl

/-- The two-column weight array is the two halves of the scorer's weight column side by side. -/
theorem s2_v37 (V : Valuation τ sig (Elt Ideal)) :
    after (hostOps2_2 (F := Ideal)) V (Proc.devRef .tc main_v37)
      = (concatenate S128x2 1
          [⟨S128x1, Cert.ReferenceIdeal.Read.val_main_v56 (F := Ideal) (V (Proc.devRef .tc main_arg13))⟩,
           ⟨S128x1, Cert.ReferenceIdeal.Read.val_main_v65 (F := Ideal) (V (Proc.devRef .tc main_arg13))⟩]
          concatenates_S128x1_S128x1_S128x2_d1 : FVec Ideal S128x2 .f32) := by
  after_results_simp
  rfl

/-- The bias vector recast as a one-row matrix reads the vector. -/
theorem s2_v38 (V : Valuation τ sig (Elt Ideal)) (q : Fin 128) :
    (after (hostOps2_2 (F := Ideal)) V (Proc.devRef .tc main_v38) : FVec Ideal S1x128 .f32) (ix2 (0 : Fin 1) q)
      = (V (Proc.devRef .tc main_arg12) : FVec Ideal S128 .f32) (ix1 q) := by
  after_results_simp
  exact shapeCast_a_1a_apply _ _ (0 : Fin 1) q

/-! ## The three stretches together -/

/-- The neighbourhood mean the host forms of the projected table is the reference's neighbourhood mean of that table,
    given that the count buffer holds the reference's raw count: the same operations composed in the same order. -/
theorem B_v34 (Vx : Valuation τ sig (Elt Ideal))
    (h3 : Vx (Proc.devRef .tc main_v3) = Cert.ReferenceIdeal.Read.val_main_v13 (F := Ideal) (Vx (Proc.devRef .tc main_arg2))) :
    VB Vx (Proc.devRef .tc main_v34)
      = Cert.ReferenceIdeal.Read.val_main_v17 (F := Ideal) (Vx (Proc.devRef .tc main_v20)) (Vx (Proc.devRef .tc main_arg1))
          (Vx (Proc.devRef .tc main_arg2)) :=
  s2_v34 _ _ _ _
    (by rw [B1_of _ main_v30 (by decide), s0_v30])
    (s1_v31 _ _ (by rw [B0_of _ main_v3 (by decide), h3]) (by rw [s0_cst7]))

/-- Column 0 of the two-column weight array is the first half of the scorer's weight column. -/
theorem B_v37_0 (Vx : Valuation τ sig (Elt Ideal)) (k : Fin 128) :
    VB Vx (Proc.devRef .tc main_v37) (ix2 k (0 : Fin 2))
      = Cert.ReferenceIdeal.Read.val_main_v56 (F := Ideal) (Vx (Proc.devRef .tc main_arg13)) (ix2 k (0 : Fin 1)) := by
  show after (hostOps2_2 (F := Ideal)) _ (Proc.devRef .tc main_v37) (ix2 k (0 : Fin 2)) = _
  rw [s2_v37, B1_of _ main_arg13 (by decide), B0_of _ main_arg13 (by decide)]
  exact concatenate_pair_apply_left (1 : Fin S128x2.rank) _ _ concatenates_S128x1_S128x1_S128x2_d1 (ix2 k (0 : Fin 2)) rfl
    (ix2 k (0 : Fin 1)) (fun b => by match b with | ⟨0, _⟩ => rfl | ⟨1, _⟩ => rfl)

/-- Column 1 of the two-column weight array is the second half of the scorer's weight column. -/
theorem B_v37_1 (Vx : Valuation τ sig (Elt Ideal)) (k : Fin 128) :
    VB Vx (Proc.devRef .tc main_v37) (ix2 k (1 : Fin 2))
      = Cert.ReferenceIdeal.Read.val_main_v65 (F := Ideal) (Vx (Proc.devRef .tc main_arg13)) (ix2 k (0 : Fin 1)) := by
  show after (hostOps2_2 (F := Ideal)) _ (Proc.devRef .tc main_v37) (ix2 k (1 : Fin 2)) = _
  rw [s2_v37, B1_of _ main_arg13 (by decide), B0_of _ main_arg13 (by decide)]
  exact concatenate_pair_apply_right (1 : Fin S128x2.rank) _ _ concatenates_S128x1_S128x1_S128x2_d1 (ix2 k (1 : Fin 2)) rfl rfl
    (ix2 k (0 : Fin 1)) (fun b hb => by
      match b with
      | ⟨0, _⟩ => rfl
      | ⟨1, _⟩ => exact absurd rfl hb) rfl

/-- The one-row bias reads the bias vector. -/
theorem B_v38 (Vx : Valuation τ sig (Elt Ideal)) (q : Fin 128) :
    VB Vx (Proc.devRef .tc main_v38) (ix2 (0 : Fin 1) q) = Vx (Proc.devRef .tc main_arg12) (ix1 q) :=
  (s2_v38 _ q).trans (by rw [B1_of _ main_arg12 (by decide), B0_of _ main_arg12 (by decide)])

end Cert.KernelIdeal.KHostB

end
-- ==== Proof.KHostC.lean ====
/-
  The last host stretch, read at an edge. From the region's second output (a 50000 x 2 table) the stretch cuts
  the two columns, wraps each of four index columns (a negative word gets 50000 added), gathers column 0 by the
  first of a pair and column 1 by the second (a word read signed and clamped into the table), adds the two, and
  adds the one-entry bias broadcast. So each of its two results is, edge by edge, the table's column 0 at the
  row the first word selects plus column 1 at the row the second word selects plus the bias. The wrapped columns
  are the same operations as the reference's wrapped columns.
-/
import proofs.«160922_j50053548868188_2_alg».proof.Proof.Gen.KernelIdeal.Frame
import proofs.«160922_j50053548868188_2_alg».proof.Proof.Gen.ReferenceIdeal.Read
import proofs.«160922_j50053548868188_2_alg».proof.Proof.Spec
import proofs.«160922_j50053548868188_2_alg».proof.Proof.LibRowOps
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

namespace Cert.KernelIdeal.KHostC

open Cert.KernelIdeal Cert.KernelIdeal.Gen Idealize.ShloMosaic Idealize.ShloMosaic.TcCoe Idealize.SL.Sem
open Idealize.ShloMosaic.ValueIdx Idealize.ShloMosaic.StableHlo

/-- An index column wrapped as the host operations print it: a negative word gets 50000 added, and the
    result is laid out as one column. -/
abbrev wrapCol (x : (⟨S200000, .i32⟩ : BufTy).Contents (Elt Ideal)) : (⟨S200000x1, .i32⟩ : BufTy).Contents (Elt Ideal) :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 50000#32))) x)

/-- The four wrapped columns are the reference's four wrapped columns: the same operations. -/
theorem wrap_v54 (x : (⟨S200000, .i32⟩ : BufTy).Contents (Elt Ideal)) :
    wrapCol x = Cert.ReferenceIdeal.Read.val_main_v54 (F := Ideal) x := rfl
theorem wrap_v63 (x : (⟨S200000, .i32⟩ : BufTy).Contents (Elt Ideal)) :
    wrapCol x = Cert.ReferenceIdeal.Read.val_main_v63 (F := Ideal) x := rfl
theorem wrap_v76 (x : (⟨S200000, .i32⟩ : BufTy).Contents (Elt Ideal)) :
    wrapCol x = Cert.ReferenceIdeal.Read.val_main_v76 (F := Ideal) x := rfl
theorem wrap_v85 (x : (⟨S200000, .i32⟩ : BufTy).Contents (Elt Ideal)) :
    wrapCol x = Cert.ReferenceIdeal.Read.val_main_v85 (F := Ideal) x := rfl

/-- A one-column table gathered by a column of words reads, at edge e, the table at the row the e-th word selects. -/
theorem gather_col (x : FVec Ideal S50000x1 .f32) (idx : IVec S200000x1 32) (e : Fin 200000) :
    Host.gather gather_S50000x1_S200000x1_S200000x1_1_0_n_n_0_1_11 x idx (ix2 e 0)
      = x (ix2 (Cert.Spec.rowOf 50000 (by decide) (idx (ix2 e 0))) (0 : Fin 1)) :=
  RowOps.gather_rows_apply (by decide) _ x idx e 0

/-- One edge's score: column 0 of the table at the row the first word selects, plus column 1 at the row the second
    word selects, plus the bias. -/
theorem score_apply (X : FVec Ideal S50000x2 .f32) (ia ib : IVec S200000x1 32) (b : FVec Ideal S1 .f32) (e : Fin 200000) :
    addf (F := Ideal)
        (addf (F := Ideal)
          (Host.gather gather_S50000x1_S200000x1_S200000x1_1_0_n_n_0_1_11
            (extractStridedSlice S50000x1 ![0, 0] X slices_S50000x2_S50000x1_0_0) ia)
          (Host.gather gather_S50000x1_S200000x1_S200000x1_1_0_n_n_0_1_11
            (extractStridedSlice S50000x1 ![0, 1] X slices_S50000x2_S50000x1_0_1) ib))
        (broadcastInDim S200000x1 ![0, 1] bcast_S1x1_S200000x1_0_1 (fun i => shapeCast S1x1 b shapeCasts_S1_S1x1 i))
        (ix2 e 0)
      = X (ix2 (Cert.Spec.rowOf 50000 (by decide) (ia (ix2 e 0))) (0 : Fin 2))
        + X (ix2 (Cert.Spec.rowOf 50000 (by decide) (ib (ix2 e 0))) (1 : Fin 2)) + b (ix1 0) := by
  rw [addf_apply, addf_apply]
  rw [gather_col, gather_col]
  rw [slice2_axis1_apply 0 X _ _ (0 : Fin 1) (0 : Fin 2) rfl, slice2_axis1_apply 1 X _ _ (0 : Fin 1) (1 : Fin 2) rfl]
  rw [broadcastInDim_apply _ _ _ (ix2 e 0) (ix2 0 0) (fun a => by
    match a with
    | ⟨0, _⟩ => rfl
    | ⟨1, _⟩ => rfl)]
  rw [shapeCast_a_1a_apply]

/-- Edge by edge: column 0 of a two-column table at the row the first word selects, plus column 1 at the row the
    second word selects, plus a constant. -/
abbrev edgeSum (X : Cert.Spec.Arr 50000 2) (ia ib : Cert.Spec.IArr 200000) (b : EReal) : Cert.Spec.Arr 200000 1 :=
  fun j => X (ix2 (Cert.Spec.rowOf 50000 (by decide) (ia (ix2 (j 0) 0))) (0 : Fin 2))
    + X (ix2 (Cert.Spec.rowOf 50000 (by decide) (ib (ix2 (j 0) 0))) (1 : Fin 2)) + b

set_option maxHeartbeats 1000000 in
/-- The last host stretch leaves in its first result, edge by edge, the two gathered columns of the region's second output
    added, plus the bias. -/
theorem C_v59 (Vx : Valuation τ sig (Elt Ideal)) :
    StableHlo.after (hostOps3 (F := Ideal)) Vx (Proc.devRef .tc main_v59)
      = edgeSum (Vx (Proc.devRef .tc main_v39_1))
          (Cert.ReferenceIdeal.Read.val_main_v54 (F := Ideal) (Vx (Proc.devRef .tc main_arg3)))
          (Cert.ReferenceIdeal.Read.val_main_v63 (F := Ideal) (Vx (Proc.devRef .tc main_arg4)))
          (Vx (Proc.devRef .tc main_arg14) (ix1 0)) := by
  after_results_simp
  funext j
  obtain ⟨e, u, rfl⟩ : ∃ (e : Fin 200000) (u : Fin 1), j = ix2 e u := ⟨j 0, j 1, eq_ix2 j⟩
  obtain rfl : u = 0 := Subsingleton.elim _ _
  exact score_apply (Vx (Proc.devRef .tc main_v39_1)) (wrapCol (Vx (Proc.devRef .tc main_arg3))) (wrapCol (Vx (Proc.devRef .tc main_arg4)))
    (Vx (Proc.devRef .tc main_arg14)) e

set_option maxHeartbeats 1000000 in
/-- The last host stretch leaves in its second result, edge by edge, the two gathered columns of the region's second output
    added, plus the bias. -/
theorem C_v76 (Vx : Valuation τ sig (Elt Ideal)) :
    StableHlo.after (hostOps3 (F := Ideal)) Vx (Proc.devRef .tc main_v76)
      = edgeSum (Vx (Proc.devRef .tc main_v39_1))
          (Cert.ReferenceIdeal.Read.val_main_v76 (F := Ideal) (Vx (Proc.devRef .tc main_arg5)))
          (Cert.ReferenceIdeal.Read.val_main_v85 (F := Ideal) (Vx (Proc.devRef .tc main_arg6)))
          (Vx (Proc.devRef .tc main_arg14) (ix1 0)) := by
  after_results_simp
  funext j
  obtain ⟨e, u, rfl⟩ : ∃ (e : Fin 200000) (u : Fin 1), j = ix2 e u := ⟨j 0, j 1, eq_ix2 j⟩
  obtain rfl : u = 0 := Subsingleton.elim _ _
  exact score_apply (Vx (Proc.devRef .tc main_v39_1)) (wrapCol (Vx (Proc.devRef .tc main_arg5))) (wrapCol (Vx (Proc.devRef .tc main_arg6)))
    (Vx (Proc.devRef .tc main_arg14)) e

end Cert.KernelIdeal.KHostC

end
-- ==== Proof.RefValue.lean ====
/-
  The reference computation, stage by stage, as the mathematics of the specification. Each stage of the
  straight-line reference program is read at an index and identified with the corresponding array expression:
  the two neighbourhood means (a row gather by the source words, a row scatter-add into zeros by the destination
  words, a division by the clipped count), the two layers (matrix products, bias, maximum with zero), and the
  edge scores (two gathered rows against the two halves of the scorer's weight, plus the bias). The clipped
  counts are positive reals: a sum of ones over a finite set is a natural number, and its maximum with 1 is at
  least 1.

  The row gather and the row scatter-add are read at an index once, over arbitrary sizes, and the program's own
  dimension records are instances of the general ones.
-/
import proofs.«160922_j50053548868188_2_alg».proof.Proof.Spec
import proofs.«160922_j50053548868188_2_alg».proof.Proof.Gen.ReferenceIdeal.Read
import proofs.«160922_j50053548868188_2_alg».proof.Proof.LibRowOps

noncomputable section

namespace Cert.ReferenceIdeal.RefValue

open Cert.ReferenceIdeal Cert.ReferenceIdeal.Read Cert.Spec Idealize.ShloMosaic Idealize.ShloMosaic.ValueIdx

/-! ## Counting -/

/-- A maximum of 1 with a natural number is a positive real. -/
theorem max_one_natCast_pos (c : Nat) : ∃ r : ℝ, 0 < r ∧ max (1 : EReal) (c : EReal) = (r : EReal) := by
  rcases le_total (1 : EReal) (c : EReal) with h | h
  · rw [max_eq_right h]
    have h1 : ((1 : Nat) : EReal) ≤ (c : EReal) := by rw [Nat.cast_one]; exact h
    have h2 : 1 ≤ c := EReal.natCast_le_iff.mp h1
    exact ⟨(c : ℝ), Nat.cast_pos.mpr (by omega), (EReal.coe_coe_eq_natCast c).symm⟩
  · rw [max_eq_left h]
    exact ⟨1, one_pos, EReal.coe_one.symm⟩

/-- Scatter-adding ones into zeros counts: the value at an index is a natural number. -/
theorem scatterAdd_ones_count {s si su : Shape} (d : ScatterDims s si su) {w : Nat}
    (x : FVec Ideal s .f32) (idx : IVec si w) (upd : FVec Ideal su .f32)
    (hx : ∀ i, x i = (0 : EReal)) (hu : ∀ j, upd j = (1 : EReal)) (i : s.Idx) :
    ∃ c : Nat, Host.scatterAdd (F := Ideal) d x idx upd i = (c : EReal) := by
  refine ⟨(Finset.univ.filter (fun j => d.resultIdx? j idx = some i)).card, ?_⟩
  show x i + ∑ j ∈ Finset.univ.filter (fun j => d.resultIdx? j idx = some i), upd j = _
  rw [hx, Finset.sum_congr rfl (fun j _ => hu j), Finset.sum_const, zero_add, nsmul_one]

/-! ## Row gather and row scatter-add, in general sizes -/

/-- Scatter-adding, into zeros, the rows gathered from a table: per destination row, the sum of the table rows that
    the source words select, over the edges whose destination word is that row. -/
theorem scatter_gather_rows {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (dg : GatherDims ⟨2, ![N, C]⟩ ⟨2, ![E, 1]⟩ ⟨2, ![E, C]⟩) (hdg : dg = RowOps.rowGatherDims N E C wfg)
    (ds : ScatterDims ⟨2, ![N, C]⟩ ⟨2, ![E, 1]⟩ ⟨2, ![E, C]⟩) (hds : ds = RowOps.rowScatterDims N E C wfs)
    (z x : FVec Ideal ⟨2, ![N, C]⟩ .f32) (hz : ∀ i, z i = (0 : EReal))
    (sidx didx : IVec ⟨2, ![E, 1]⟩ 32) :
    Host.scatterAdd (F := Ideal) ds z didx (Host.gather dg x sidx) = segsum didx (rowsAt hN sidx x) := by
  subst hdg hds
  funext i
  obtain ⟨n, k, rfl⟩ : ∃ a b, i = ix2 a b := ⟨i 0, i 1, eq_ix2 i⟩
  show Ideal.hostScatterAdd (RowOps.rowScatterDims N E C wfs) z didx _ (ix2 n k) = _
  rw [RowOps.scatterAdd_rows_apply, hz, zero_add]
  refine Finset.sum_congr rfl fun e _ => ?_
  exact RowOps.gather_rows_apply hN wfg x sidx e k

/-- A gathered row times a one-column weight is the matrix product read at the selected row. -/
theorem gather_row_dot {N E K : Nat} (hN : 0 < N)
    (wfg : GatherDims.WF ⟨2, ![N, K]⟩ ⟨2, ![E, 1]⟩ ⟨2, ![E, K]⟩ [1] [0] [] [0] [] 1 ![1, K])
    (dg : GatherDims ⟨2, ![N, K]⟩ ⟨2, ![E, 1]⟩ ⟨2, ![E, K]⟩) (hdg : dg = RowOps.rowGatherDims N E K wfg)
    (x : FVec Ideal ⟨2, ![N, K]⟩ .f32) (idx : IVec ⟨2, ![E, 1]⟩ 32) (wa : Arr K 1) (e : Fin E) :
    ∑ k : Fin K, Host.gather dg x idx (ix2 e k) * wa (ix2 k 0)
      = mm x wa (ix2 (rowOf N hN (idx (ix2 e 0))) 0) := by
  subst hdg
  unfold mm
  refine Finset.sum_congr rfl fun k _ => ?_
  rw [RowOps.gather_rows_apply hN wfg x idx e k]
  rfl

/-- The neighbourhood mean read at (n, k). -/
theorem meanAgg_ix2 {N E C : Nat} (hN : 0 < N) (cc : Fin N → EReal) (sidx didx : IArr E) (a : Arr N C)
    (n : Fin N) (k : Fin C) :
    meanAgg hN cc sidx didx a (ix2 n k) = Ideal.div (segsum didx (rowsAt hN sidx a) (ix2 n k)) (cc n) := rfl

/-- An edge's score from two gathered rows: the two row-times-column sums plus the bias. -/
theorem score_point {N E K : Nat} (hN : 0 < N)
    (wfg : GatherDims.WF ⟨2, ![N, K]⟩ ⟨2, ![E, 1]⟩ ⟨2, ![E, K]⟩ [1] [0] [] [0] [] 1 ![1, K])
    (dg : GatherDims ⟨2, ![N, K]⟩ ⟨2, ![E, 1]⟩ ⟨2, ![E, K]⟩) (hdg : dg = RowOps.rowGatherDims N E K wfg)
    (h : FVec Ideal ⟨2, ![N, K]⟩ .f32) (ps pd : IVec ⟨2, ![E, 1]⟩ 32) (wa wb : Arr K 1) (bias : EReal)
    (e : Fin E) :
    (∑ k : Fin K, Host.gather dg h ps (ix2 e k) * wa (ix2 k 0))
        + (∑ k : Fin K, Host.gather dg h pd (ix2 e k) * wb (ix2 k 0)) + bias
      = score hN h wa wb bias ps pd (ix2 e 0) := by
  rw [gather_row_dot hN wfg dg hdg, gather_row_dot hN wfg dg hdg]
  rfl

/-! ## Layer one -/

/-- The clipped neighbour count of layer one is a positive real. -/
theorem cc14_pos (x2 : (⟨S800000, .i32⟩ : BufTy).Contents (Elt Ideal)) (n : Fin 50000) :
    ∃ r : ℝ, 0 < r ∧ val_main_v14 (F := Ideal) x2 (ix1 n) = (r : EReal) := by
  have h11 : ∀ i, val_main_v11 (F := Ideal) i = (0 : EReal) := by
    intro i; rw [val_main_v11_apply, val_main_cst_2_apply]; exact ofBits_zero
  have h10 : ∀ j, val_main_v10 (F := Ideal) j = (1 : EReal) := by
    intro j; rw [val_main_v10_apply, val_main_cst_1_apply]; exact ofBits_one
  obtain ⟨c, hc⟩ := scatterAdd_ones_count scatter_S50000_S800000x1_S800000_n_0_0_1 (val_main_v11 (F := Ideal))
    (val_main_v12 (F := Ideal) x2) (val_main_v10 (F := Ideal)) h11 h10 (ix1 n)
  have h13 : val_main_v13 (F := Ideal) x2 (ix1 n) = (c : EReal) := by
    unfold val_main_v13
    exact hc
  rw [val_main_v14_apply, val_main_call0_v1_apply, val_main_call0_v0_apply, val_main_cst_3_apply, h13,
    Ideal.maximumf_def, Ideal.ofBits_def, ofBits_one]
  exact max_one_natCast_pos c

/-- The row scatter-add of layer one: per node, the sum of the feature rows the source words select, over the edges
    whose destination word is that node. -/
theorem v9_eq (x0 : (⟨S50000x128, .f32⟩ : BufTy).Contents (Elt Ideal))
    (x1 x2 : (⟨S800000, .i32⟩ : BufTy).Contents (Elt Ideal)) :
    val_main_v9 (F := Ideal) x0 x1 x2
      = segsum (val_main_v8 (F := Ideal) x2) (rowsAt (N := 50000) (by decide) (val_main_v5 (F := Ideal) x1) x0) := by
  have h7 : ∀ i, val_main_v7 (F := Ideal) i = (0 : EReal) := by
    intro i; rw [val_main_v7_apply, val_main_cst_apply]; exact ofBits_zero
  unfold val_main_v9 val_main_v6
  exact scatter_gather_rows (by decide)
    Facts₀.gather_S50000x128_S800000x1_S800000x128_1_0_n_n_0_1_1128_wf
    Facts₀.scatter_S50000x128_S800000x1_S800000x128_1_0_0_1_wf
    gather_S50000x128_S800000x1_S800000x128_1_0_n_n_0_1_1128 rfl
    scatter_S50000x128_S800000x1_S800000x128_1_0_0_1 rfl
    (val_main_v7 (F := Ideal)) x0 h7 (val_main_v5 (F := Ideal) x1) (val_main_v8 (F := Ideal) x2)

/-- The layer-one neighbour mean. -/
theorem v17_eq (x0 : (⟨S50000x128, .f32⟩ : BufTy).Contents (Elt Ideal))
    (x1 x2 : (⟨S800000, .i32⟩ : BufTy).Contents (Elt Ideal)) :
    val_main_v17 (F := Ideal) x0 x1 x2
      = meanAgg (N := 50000) (by decide) (fun n => val_main_v14 (F := Ideal) x2 (ix1 n))
          (val_main_v5 (F := Ideal) x1) (val_main_v8 (F := Ideal) x2) x0 := by
  funext i
  obtain ⟨n, k, rfl⟩ : ∃ a b, i = ix2 a b := ⟨i 0, i 1, eq_ix2 i⟩
  have e1 : idx_main_v15 (idx_main_v16 (ix2 n k)) = ix1 n := funext fun d => match d with | ⟨0, _⟩ => rfl
  rw [val_main_v17_apply, val_main_v16_apply, val_main_v15_apply, e1, v9_eq, Ideal.hostDivf_def, meanAgg_ix2]

/-- Layer one: x W + mean(x) W' + b, then the maximum with zero. -/
theorem v24_eq (x0 : (⟨S50000x128, .f32⟩ : BufTy).Contents (Elt Ideal))
    (x1 x2 : (⟨S800000, .i32⟩ : BufTy).Contents (Elt Ideal))
    (x7 x8 : (⟨S128x256, .f32⟩ : BufTy).Contents (Elt Ideal))
    (x9 : (⟨S256, .f32⟩ : BufTy).Contents (Elt Ideal)) :
    val_main_v24 (F := Ideal) x0 x1 x2 x7 x8 x9 = layer1 x0 (val_main_v17 (F := Ideal) x0 x1 x2) x7 x8 x9 := by
  funext i
  obtain ⟨a, b, rfl⟩ : ∃ a b, i = ix2 a b := ⟨i 0, i 1, eq_ix2 i⟩
  rw [val_main_v24_apply, val_main_v23_apply, val_main_v20_apply, val_main_v18_apply, val_main_v19_apply,
    val_main_v22_apply, val_main_v21_apply, val_main_call1_v0_apply, val_main_call1_cst_apply]
  simp only [Ideal.maximumf_def, Ideal.addf_def, Ideal.ofBits_def, ofBits_zero]
  have e1 : ∀ k : Fin 128, lidx_main_v18 (ix2 a b) k = ix2 a k := fun k =>
    funext fun d => match d with | ⟨0, _⟩ => rfl | ⟨1, _⟩ => rfl
  have e2 : ∀ k : Fin 128, ridx_main_v18 (ix2 a b) k = ix2 k b := fun k =>
    funext fun d => match d with | ⟨0, _⟩ => rfl | ⟨1, _⟩ => rfl
  have e3 : ∀ k : Fin 128, lidx_main_v19 (ix2 a b) k = ix2 a k := fun k =>
    funext fun d => match d with | ⟨0, _⟩ => rfl | ⟨1, _⟩ => rfl
  have e4 : ∀ k : Fin 128, ridx_main_v19 (ix2 a b) k = ix2 k b := fun k =>
    funext fun d => match d with | ⟨0, _⟩ => rfl | ⟨1, _⟩ => rfl
  have e5 : idx_main_v21 (idx_main_v22 (ix2 a b)) = ix1 b :=
    funext fun d => match d with | ⟨0, _⟩ => rfl
  simp only [e1, e2, e3, e4, e5]
  rfl

/-! ## Layer two -/

/-- The clipped neighbour count of layer two is a positive real: a sum of ones over a finite set is a natural
    number, and its maximum with 1 is at least 1. -/
theorem cc_pos (x2 : (⟨S800000, .i32⟩ : BufTy).Contents (Elt Ideal)) (n : Fin 50000) :
    ∃ r : ℝ, 0 < r ∧ val_main_v39 (F := Ideal) x2 (ix1 n) = (r : EReal) := by
  have h36 : ∀ i, val_main_v36 (F := Ideal) i = (0 : EReal) := by
    intro i; rw [val_main_v36_apply, val_main_cst_8_apply]; exact ofBits_zero
  have h35 : ∀ j, val_main_v35 (F := Ideal) j = (1 : EReal) := by
    intro j; rw [val_main_v35_apply, val_main_cst_7_apply]; exact ofBits_one
  obtain ⟨c, hc⟩ := scatterAdd_ones_count scatter_S50000_S800000x1_S800000_n_0_0_1 (val_main_v36 (F := Ideal))
    (val_main_v37 (F := Ideal) x2) (val_main_v35 (F := Ideal)) h36 h35 (ix1 n)
  have h38 : val_main_v38 (F := Ideal) x2 (ix1 n) = (c : EReal) := by
    unfold val_main_v38
    exact hc
  rw [val_main_v39_apply, val_main_call2_v1_apply, val_main_call2_v0_apply, val_main_cst_9_apply, h38,
    Ideal.maximumf_def, Ideal.ofBits_def, ofBits_one]
  exact max_one_natCast_pos c

/-- The row scatter-add of layer two: per node, the sum of the hidden rows the source words select, over the edges
    whose destination word is that node. -/
theorem v34_eq (x0 : (⟨S50000x128, .f32⟩ : BufTy).Contents (Elt Ideal))
    (x1 x2 : (⟨S800000, .i32⟩ : BufTy).Contents (Elt Ideal))
    (x7 x8 : (⟨S128x256, .f32⟩ : BufTy).Contents (Elt Ideal))
    (x9 : (⟨S256, .f32⟩ : BufTy).Contents (Elt Ideal)) :
    val_main_v34 (F := Ideal) x0 x1 x2 x7 x8 x9
      = segsum (val_main_v33 (F := Ideal) x2)
          (rowsAt (N := 50000) (by decide) (val_main_v30 (F := Ideal) x1)
            (val_main_v24 (F := Ideal) x0 x1 x2 x7 x8 x9)) := by
  have h32 : ∀ i, val_main_v32 (F := Ideal) i = (0 : EReal) := by
    intro i; rw [val_main_v32_apply, val_main_cst_6_apply]; exact ofBits_zero
  unfold val_main_v34 val_main_v31
  exact scatter_gather_rows (by decide)
    Facts₀.gather_S50000x256_S800000x1_S800000x256_1_0_n_n_0_1_1256_wf
    Facts₀.scatter_S50000x256_S800000x1_S800000x256_1_0_0_1_wf
    gather_S50000x256_S800000x1_S800000x256_1_0_n_n_0_1_1256 rfl
    scatter_S50000x256_S800000x1_S800000x256_1_0_0_1 rfl
    (val_main_v32 (F := Ideal)) (val_main_v24 (F := Ideal) x0 x1 x2 x7 x8 x9) h32
    (val_main_v30 (F := Ideal) x1) (val_main_v33 (F := Ideal) x2)

/-- The layer-two neighbour mean of the hidden rows. -/
theorem v42_eq (x0 : (⟨S50000x128, .f32⟩ : BufTy).Contents (Elt Ideal))
    (x1 x2 : (⟨S800000, .i32⟩ : BufTy).Contents (Elt Ideal))
    (x7 x8 : (⟨S128x256, .f32⟩ : BufTy).Contents (Elt Ideal))
    (x9 : (⟨S256, .f32⟩ : BufTy).Contents (Elt Ideal)) :
    val_main_v42 (F := Ideal) x0 x1 x2 x7 x8 x9
      = meanAgg (N := 50000) (by decide) (fun n => val_main_v39 (F := Ideal) x2 (ix1 n))
          (val_main_v30 (F := Ideal) x1) (val_main_v33 (F := Ideal) x2)
          (val_main_v24 (F := Ideal) x0 x1 x2 x7 x8 x9) := by
  funext i
  obtain ⟨n, k, rfl⟩ : ∃ a b, i = ix2 a b := ⟨i 0, i 1, eq_ix2 i⟩
  have e1 : idx_main_v40 (idx_main_v41 (ix2 n k)) = ix1 n := funext fun d => match d with | ⟨0, _⟩ => rfl
  rw [val_main_v42_apply, val_main_v41_apply, val_main_v40_apply, e1, v34_eq, Ideal.hostDivf_def, meanAgg_ix2]

/-- Layer two before aggregation commutes: h W + mean(h) W' + b. -/
theorem v48_eq (x0 : (⟨S50000x128, .f32⟩ : BufTy).Contents (Elt Ideal))
    (x1 x2 : (⟨S800000, .i32⟩ : BufTy).Contents (Elt Ideal))
    (x7 x8 : (⟨S128x256, .f32⟩ : BufTy).Contents (Elt Ideal))
    (x9 : (⟨S256, .f32⟩ : BufTy).Contents (Elt Ideal))
    (x10 x11 : (⟨S256x128, .f32⟩ : BufTy).Contents (Elt Ideal))
    (x12 : (⟨S128, .f32⟩ : BufTy).Contents (Elt Ideal)) :
    val_main_v48 (F := Ideal) x0 x1 x2 x7 x8 x9 x10 x11 x12
      = fun i => mm (val_main_v24 (F := Ideal) x0 x1 x2 x7 x8 x9) x10 i
          + mm (val_main_v42 (F := Ideal) x0 x1 x2 x7 x8 x9) x11 i + x12 (ix1 (i 1)) := by
  funext i
  obtain ⟨a, b, rfl⟩ : ∃ a b, i = ix2 a b := ⟨i 0, i 1, eq_ix2 i⟩
  rw [val_main_v48_apply, val_main_v45_apply, val_main_v43_apply, val_main_v44_apply,
    val_main_v47_apply, val_main_v46_apply]
  simp only [Ideal.addf_def]
  have e1 : ∀ k : Fin 256, lidx_main_v43 (ix2 a b) k = ix2 a k := fun k =>
    funext fun d => match d with | ⟨0, _⟩ => rfl | ⟨1, _⟩ => rfl
  have e2 : ∀ k : Fin 256, ridx_main_v43 (ix2 a b) k = ix2 k b := fun k =>
    funext fun d => match d with | ⟨0, _⟩ => rfl | ⟨1, _⟩ => rfl
  have e3 : ∀ k : Fin 256, lidx_main_v44 (ix2 a b) k = ix2 a k := fun k =>
    funext fun d => match d with | ⟨0, _⟩ => rfl | ⟨1, _⟩ => rfl
  have e4 : ∀ k : Fin 256, ridx_main_v44 (ix2 a b) k = ix2 k b := fun k =>
    funext fun d => match d with | ⟨0, _⟩ => rfl | ⟨1, _⟩ => rfl
  have e5 : idx_main_v46 (idx_main_v47 (ix2 a b)) = ix1 b :=
    funext fun d => match d with | ⟨0, _⟩ => rfl
  simp only [e1, e2, e3, e4, e5]
  rfl

/-! ## The edge scores -/

/-- The positive edges' scores. -/
theorem v70_eq (x0 : (⟨S50000x128, .f32⟩ : BufTy).Contents (Elt Ideal))
    (x1 x2 : (⟨S800000, .i32⟩ : BufTy).Contents (Elt Ideal))
    (x3 x4 : (⟨S200000, .i32⟩ : BufTy).Contents (Elt Ideal))
    (x7 x8 : (⟨S128x256, .f32⟩ : BufTy).Contents (Elt Ideal))
    (x9 : (⟨S256, .f32⟩ : BufTy).Contents (Elt Ideal))
    (x10 x11 : (⟨S256x128, .f32⟩ : BufTy).Contents (Elt Ideal))
    (x12 : (⟨S128, .f32⟩ : BufTy).Contents (Elt Ideal))
    (x13 : (⟨S256x1, .f32⟩ : BufTy).Contents (Elt Ideal))
    (x14 : (⟨S1, .f32⟩ : BufTy).Contents (Elt Ideal)) :
    val_main_v70 (F := Ideal) x0 x1 x2 x3 x4 x7 x8 x9 x10 x11 x12 x13 x14
      = score (N := 50000) (by decide) (val_main_v48 (F := Ideal) x0 x1 x2 x7 x8 x9 x10 x11 x12)
          (val_main_v56 (F := Ideal) x13) (val_main_v65 (F := Ideal) x13) (x14 (ix1 0))
          (val_main_v54 (F := Ideal) x3) (val_main_v63 (F := Ideal) x4) := by
  funext i
  obtain ⟨e, z, rfl⟩ : ∃ a b, i = ix2 a b := ⟨i 0, i 1, eq_ix2 i⟩
  obtain rfl : z = 0 := Subsingleton.elim z 0
  rw [val_main_v70_apply, val_main_v67_apply, val_main_v57_apply, val_main_v66_apply, val_main_v69_apply,
    val_main_v68_apply]
  simp only [Ideal.addf_def]
  have e1 : ∀ k : Fin 128, lidx_main_v57 (ix2 e 0) k = ix2 e k := fun k =>
    funext fun d => match d with | ⟨0, _⟩ => rfl | ⟨1, _⟩ => rfl
  have e2 : ∀ k : Fin 128, ridx_main_v57 (ix2 e 0) k = ix2 k 0 := fun k =>
    funext fun d => match d with | ⟨0, _⟩ => rfl | ⟨1, _⟩ => rfl
  have e3 : ∀ k : Fin 128, lidx_main_v66 (ix2 e 0) k = ix2 e k := fun k =>
    funext fun d => match d with | ⟨0, _⟩ => rfl | ⟨1, _⟩ => rfl
  have e4 : ∀ k : Fin 128, ridx_main_v66 (ix2 e 0) k = ix2 k 0 := fun k =>
    funext fun d => match d with | ⟨0, _⟩ => rfl | ⟨1, _⟩ => rfl
  have e5 : idx_main_v68 (idx_main_v69 (ix2 e 0)) = ix1 0 :=
    funext fun d => match d with | ⟨0, _⟩ => rfl
  simp only [e1, e2, e3, e4, e5]
  unfold val_main_v55 val_main_v64
  exact score_point (by decide) Facts₀.gather_S50000x128_S200000x1_S200000x128_1_0_n_n_0_1_1128_wf
    gather_S50000x128_S200000x1_S200000x128_1_0_n_n_0_1_1128 rfl
    (val_main_v48 (F := Ideal) x0 x1 x2 x7 x8 x9 x10 x11 x12)
    (val_main_v54 (F := Ideal) x3) (val_main_v63 (F := Ideal) x4)
    (val_main_v56 (F := Ideal) x13) (val_main_v65 (F := Ideal) x13) (x14 (ix1 0)) e

/-- The negative edges' scores. -/
theorem v92_eq (x0 : (⟨S50000x128, .f32⟩ : BufTy).Contents (Elt Ideal))
    (x1 x2 : (⟨S800000, .i32⟩ : BufTy).Contents (Elt Ideal))
    (x5 x6 : (⟨S200000, .i32⟩ : BufTy).Contents (Elt Ideal))
    (x7 x8 : (⟨S128x256, .f32⟩ : BufTy).Contents (Elt Ideal))
    (x9 : (⟨S256, .f32⟩ : BufTy).Contents (Elt Ideal))
    (x10 x11 : (⟨S256x128, .f32⟩ : BufTy).Contents (Elt Ideal))
    (x12 : (⟨S128, .f32⟩ : BufTy).Contents (Elt Ideal))
    (x13 : (⟨S256x1, .f32⟩ : BufTy).Contents (Elt Ideal))
    (x14 : (⟨S1, .f32⟩ : BufTy).Contents (Elt Ideal)) :
    val_main_v92 (F := Ideal) x0 x1 x2 x5 x6 x7 x8 x9 x10 x11 x12 x13 x14
      = score (N := 50000) (by decide) (val_main_v48 (F := Ideal) x0 x1 x2 x7 x8 x9 x10 x11 x12)
          (val_main_v78 (F := Ideal) x13) (val_main_v87 (F := Ideal) x13) (x14 (ix1 0))
          (val_main_v76 (F := Ideal) x5) (val_main_v85 (F := Ideal) x6) := by
  funext i
  obtain ⟨e, z, rfl⟩ : ∃ a b, i = ix2 a b := ⟨i 0, i 1, eq_ix2 i⟩
  obtain rfl : z = 0 := Subsingleton.elim z 0
  rw [val_main_v92_apply, val_main_v89_apply, val_main_v79_apply, val_main_v88_apply, val_main_v91_apply,
    val_main_v90_apply]
  simp only [Ideal.addf_def]
  have e1 : ∀ k : Fin 128, lidx_main_v79 (ix2 e 0) k = ix2 e k := fun k =>
    funext fun d => match d with | ⟨0, _⟩ => rfl | ⟨1, _⟩ => rfl
  have e2 : ∀ k : Fin 128, ridx_main_v79 (ix2 e 0) k = ix2 k 0 := fun k =>
    funext fun d => match d with | ⟨0, _⟩ => rfl | ⟨1, _⟩ => rfl
  have e3 : ∀ k : Fin 128, lidx_main_v88 (ix2 e 0) k = ix2 e k := fun k =>
    funext fun d => match d with | ⟨0, _⟩ => rfl | ⟨1, _⟩ => rfl
  have e4 : ∀ k : Fin 128, ridx_main_v88 (ix2 e 0) k = ix2 k 0 := fun k =>
    funext fun d => match d with | ⟨0, _⟩ => rfl | ⟨1, _⟩ => rfl
  have e5 : idx_main_v90 (idx_main_v91 (ix2 e 0)) = ix1 0 :=
    funext fun d => match d with | ⟨0, _⟩ => rfl
  simp only [e1, e2, e3, e4, e5]
  unfold val_main_v77 val_main_v86
  exact score_point (by decide) Facts₀.gather_S50000x128_S200000x1_S200000x128_1_0_n_n_0_1_1128_wf
    gather_S50000x128_S200000x1_S200000x128_1_0_n_n_0_1_1128 rfl
    (val_main_v48 (F := Ideal) x0 x1 x2 x7 x8 x9 x10 x11 x12)
    (val_main_v76 (F := Ideal) x5) (val_main_v85 (F := Ideal) x6)
    (val_main_v78 (F := Ideal) x13) (val_main_v87 (F := Ideal) x13) (x14 (ix1 0)) e

end Cert.ReferenceIdeal.RefValue

end
-- ==== Proof.Bridge.lean ====
/-
  Where the two programs differ. The reference's second layer multiplies the neighbourhood mean of the hidden rows by
  the neighbour weight; the kernel takes the neighbourhood mean of the rows already multiplied by that weight. The
  hidden rows are a maximum with zero, so every entry is nonnegative, and every clipped neighbour count is a real
  number at least one: the matrix product passes through the mean (Spec.meanAgg_mm), and the two second layers are one
  function of the arguments.
-/
import proofs.«160922_j50053548868188_2_alg».proof.Proof.RefValue

noncomputable section

namespace Cert.Bridge

open Cert.ReferenceIdeal Cert.ReferenceIdeal.Read Cert.ReferenceIdeal.RefValue Cert.Spec
open Idealize.ShloMosaic Idealize.ShloMosaic.ValueIdx

/-- The first layer's rows are nonnegative: a maximum with zero. -/
theorem layer1_nonneg {N K C : Nat} (x nb : Arr N K) (ws wn : Arr K C) (b : Vec1 C) (i : (⟨2, ![N, C]⟩ : Shape).Idx) :
    0 ≤ layer1 x nb ws wn b i := le_max_right _ _

/-- The reference recomputes the clipped count for its second layer: the same function of the destinations. -/
theorem cc39_eq_cc14 (x2 : (⟨S800000, .i32⟩ : BufTy).Contents (Elt Ideal)) : val_main_v39 (F := Ideal) x2 = val_main_v14 x2 := rfl
/-- … and the source column … -/
theorem v30_eq_v5 (x1 : (⟨S800000, .i32⟩ : BufTy).Contents (Elt Ideal)) : val_main_v30 (F := Ideal) x1 = val_main_v5 x1 := rfl
/-- … and the destination column. -/
theorem v33_eq_v8 (x2 : (⟨S800000, .i32⟩ : BufTy).Contents (Elt Ideal)) : val_main_v33 (F := Ideal) x2 = val_main_v8 x2 := rfl

/-- THE SECOND LAYERS AGREE: the kernel's form — the hidden rows times the self weight, plus the mean of the hidden
    rows ALREADY multiplied by the neighbour weight, plus the bias — is the reference's. -/
theorem layer2_eq (x0 : (⟨S50000x128, .f32⟩ : BufTy).Contents (Elt Ideal)) (x1 x2 : (⟨S800000, .i32⟩ : BufTy).Contents (Elt Ideal))
    (x7 x8 : (⟨S128x256, .f32⟩ : BufTy).Contents (Elt Ideal)) (x9 : (⟨S256, .f32⟩ : BufTy).Contents (Elt Ideal))
    (x10 x11 : (⟨S256x128, .f32⟩ : BufTy).Contents (Elt Ideal)) (x12 : (⟨S128, .f32⟩ : BufTy).Contents (Elt Ideal)) :
    layer2 (val_main_v24 (F := Ideal) x0 x1 x2 x7 x8 x9)
        (val_main_v17 (F := Ideal) (mm (val_main_v24 (F := Ideal) x0 x1 x2 x7 x8 x9) x11) x1 x2) x10 x12
      = val_main_v48 (F := Ideal) x0 x1 x2 x7 x8 x9 x10 x11 x12 := by
  rw [v48_eq, v42_eq, v17_eq, cc39_eq_cc14, v30_eq_v5, v33_eq_v8]
  rw [meanAgg_mm (by decide) (fun n => val_main_v14 (F := Ideal) x2 (ix1 n)) (fun n => cc14_pos x2 n)
    (val_main_v5 x1) (val_main_v8 x2) (val_main_v24 (F := Ideal) x0 x1 x2 x7 x8 x9)
    (fun i => by rw [v24_eq]; exact layer1_nonneg _ _ _ _ _ i) x11]
  rfl

end Cert.Bridge

end
-- ==== Proof.KValue.lean ====
/-
  The idealized kernel's two results as functions of its arguments. The run's boundary contents are read back, one
  segment at a time: the first host stretch leaves the neighbourhood mean of the features; region one the first layer
  (the maximum with zero); region two that layer times the neighbour weight; the second host stretch the neighbourhood
  mean of those projected rows and the two halves of the scorer weight side by side; region three the second layer
  and its product with the two halves; the last host stretch, per edge, the source node's entry of the first
  product column plus the destination node's entry of the second plus the bias. Each is the reference's own stage of
  the same arguments, the second layer by the law that a matrix product passes through the mean.
-/
import proofs.«160922_j50053548868188_2_alg».proof.Proof.KernelRun
import proofs.«160922_j50053548868188_2_alg».proof.Proof.KChain01
import proofs.«160922_j50053548868188_2_alg».proof.Proof.KChain2
import proofs.«160922_j50053548868188_2_alg».proof.Proof.KHostA
import proofs.«160922_j50053548868188_2_alg».proof.Proof.KHostB
import proofs.«160922_j50053548868188_2_alg».proof.Proof.KHostC
import proofs.«160922_j50053548868188_2_alg».proof.Proof.Bridge

set_option maxRecDepth 16384

noncomputable section

namespace Cert.KernelIdeal.KValue

open Cert.KernelIdeal Cert.KernelIdeal.Gen
open Cert.ReferenceIdeal.Read Cert.ReferenceIdeal.RefValue Cert.Spec
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-! ## Before region one -/

/-- The arguments reach region one as launched. -/
theorem W3_arg (b : Ref sig .tc) (hb : b ∈ [main_arg0, main_arg1, main_arg2, main_arg3, main_arg4, main_arg5, main_arg6, main_arg7,
    main_arg8, main_arg9, main_arg10, main_arg11, main_arg12, main_arg13, main_arg14]) :
    W3 m ρ c (Proc.devRef .tc b) = m ((c : Thread nD τ).loc b) :=
  KHost.A_keep (W0 m ρ c) b hb

/-- The first host stretch leaves the neighbourhood mean of the features. -/
theorem W3_mean : W3 m ρ c (Proc.devRef .tc main_v17)
    = val_main_v17 (F := Ideal) (m ((c : Thread nD τ).loc main_arg0)) (m ((c : Thread nD τ).loc main_arg1)) (m ((c : Thread nD τ).loc main_arg2)) :=
  KHost.A_v17 (W0 m ρ c)

/-- … and the raw neighbour count, which the second mean reuses. -/
theorem W3_count : W3 m ρ c (Proc.devRef .tc main_v3) = val_main_v13 (F := Ideal) (m ((c : Thread nD τ).loc main_arg2)) :=
  KHost.A_v3 (W0 m ρ c)

/-! ## Regions one and two -/

/-- Region one leaves the first layer: the reference's hidden rows. -/
theorem W4_hidden : W4 m ρ c (Proc.devRef .tc main_v19)
    = val_main_v24 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9)) := by
  rw [KChain.W4_v19, v24_eq, W3_arg m ρ c main_arg0 (by simp), W3_arg m ρ c main_arg7 (by simp), W3_arg m ρ c main_arg8 (by simp), W3_mean]
  congr 1
  funext j
  exact (KHost.A_v18 (W0 m ρ c) (j 0)).trans (congrArg _ (eq_ix1 j).symm)

/-- An argument the first two regions do not touch reaches the second host stretch as launched. -/
theorem W5_arg (b : Ref sig .tc) (hb : b ∈ [main_arg1, main_arg2, main_arg3, main_arg4, main_arg5, main_arg6, main_arg10, main_arg12,
    main_arg13, main_arg14]) : W5 m ρ c (Proc.devRef .tc b) = m ((c : Thread nD τ).loc b) := by
  rw [KChain.W5_keep m ρ c b (by simp at hb ⊢; tauto), KChain.W4_keep m ρ c b (by simp at hb ⊢; tauto), W3_arg m ρ c b (by simp at hb ⊢; tauto)]

/-- Region two leaves the hidden rows times the neighbour weight. -/
theorem W5_projected : W5 m ρ c (Proc.devRef .tc main_v20)
    = mm (val_main_v24 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9))) (m ((c : Thread nD τ).loc main_arg11)) := by
  rw [KChain.W5_v20, W4_hidden, KChain.W4_keep m ρ c main_arg11 (by simp), W3_arg m ρ c main_arg11 (by simp)]

/-- The raw count is still there after region two. -/
theorem W5_count : W5 m ρ c (Proc.devRef .tc main_v3) = val_main_v13 (F := Ideal) (W5 m ρ c (Proc.devRef .tc main_arg2)) := by
  rw [KChain.W5_keep m ρ c main_v3 (by simp), KChain.W4_keep m ρ c main_v3 (by simp), W3_count, W5_arg m ρ c main_arg2 (by simp)]

/-! ## Before region three -/

/-- The second host stretch leaves the neighbourhood mean of the projected rows. -/
theorem W8_mean : W8 m ρ c (Proc.devRef .tc main_v34)
    = val_main_v17 (F := Ideal) (mm (val_main_v24 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9))) (m ((c : Thread nD τ).loc main_arg11)))
        (m ((c : Thread nD τ).loc main_arg1)) (m ((c : Thread nD τ).loc main_arg2)) := by
  rw [show W8 m ρ c (Proc.devRef .tc main_v34) = _ from KHostB.B_v34 (W5 m ρ c) (W5_count m ρ c),
    W5_projected, W5_arg m ρ c main_arg1 (by simp), W5_arg m ρ c main_arg2 (by simp)]

/-- The hidden rows are still there. -/
theorem W8_hidden : W8 m ρ c (Proc.devRef .tc main_v19)
    = val_main_v24 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9)) := by
  rw [show W8 m ρ c (Proc.devRef .tc main_v19) = _ from KHostB.B_keep (W5 m ρ c) main_v19 (by simp), KChain.W5_v19, W4_hidden]

/-- An argument reaches region three as launched. -/
theorem W8_arg (b : Ref sig .tc) (hb : b ∈ [main_arg3, main_arg4, main_arg5, main_arg6, main_arg10, main_arg13, main_arg14]) :
    W8 m ρ c (Proc.devRef .tc b) = m ((c : Thread nD τ).loc b) := by
  rw [show W8 m ρ c (Proc.devRef .tc b) = _ from KHostB.B_keep (W5 m ρ c) b (by simp at hb ⊢; tauto), W5_arg m ρ c b (by simp at hb ⊢; tauto)]

/-! ## Region three and the scores -/

/-- Region three leaves, in its second output, the reference's second layer times the two halves of the scorer weight. -/
theorem W9_scored : W9 m ρ c (Proc.devRef .tc main_v39_1)
    = mm (val_main_v48 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)))
      (W8 m ρ c (Proc.devRef .tc main_v37)) := by
  rw [KChain2.W9_uv, W8_hidden, W8_mean, W8_arg m ρ c main_arg10 (by simp), ← Cert.Bridge.layer2_eq]
  congr 2
  funext j
  rw [show W8 m ρ c (Proc.devRef .tc main_v38) (ix2 0 (j 0)) = _ from KHostB.B_v38 (W5 m ρ c) (j 0), W5_arg m ρ c main_arg12 (by simp)]
  exact congrArg _ (eq_ix1 j).symm

/-- An index array or the bias reaches the last host stretch as launched. -/
theorem W9_arg (b : Ref sig .tc) (hb : b ∈ [main_arg3, main_arg4, main_arg5, main_arg6, main_arg14]) :
    W9 m ρ c (Proc.devRef .tc b) = m ((c : Thread nD τ).loc b) := by
  rw [KChain2.W9_keep m ρ c b hb, W8_arg m ρ c b (by simp at hb ⊢; tauto)]

/-- A node's entry of the first product column is its second-layer row times the first half of the scorer weight. -/
theorem scored_col0 (n : Fin 50000) : (W9 m ρ c (Proc.devRef .tc main_v39_1) : Arr 50000 2) (ix2 n (0 : Fin 2))
    = mm (val_main_v48 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)))
      (val_main_v56 (F := Ideal) (m ((c : Thread nD τ).loc main_arg13))) (ix2 n (0 : Fin 1)) := by
  rw [W9_scored]
  show (mm _ _ _ : EReal) = (mm _ _ _ : EReal)
  unfold mm
  refine Finset.sum_congr rfl fun k _ => ?_
  congr 1
  exact (KHostB.B_v37_0 (W5 m ρ c) k).trans (by rw [W5_arg m ρ c main_arg13 (by simp)])

/-- … and of the second column, times the second half. -/
theorem scored_col1 (n : Fin 50000) : (W9 m ρ c (Proc.devRef .tc main_v39_1) : Arr 50000 2) (ix2 n (1 : Fin 2))
    = mm (val_main_v48 (F := Ideal) (m ((c : Thread nD τ).loc main_arg0)) (m ((c : Thread nD τ).loc main_arg1)) (m ((c : Thread nD τ).loc main_arg2))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)))
      (val_main_v65 (F := Ideal) (m ((c : Thread nD τ).loc main_arg13))) (ix2 n (0 : Fin 1)) := by
  rw [W9_scored]
  show (mm _ _ _ : EReal) = (mm _ _ _ : EReal)
  unfold mm
  refine Finset.sum_congr rfl fun k _ => ?_
  congr 1
  exact (KHostB.B_v37_1 (W5 m ρ c) k).trans (by rw [W5_arg m ρ c main_arg13 (by simp)])

/-- THE FIRST RESULT: the scores of the first edge list are the reference's. -/
theorem out0 : W10 m ρ c (Proc.devRef .tc main_v59)
    = val_main_v70 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) := by
  rw [v70_eq, show W10 m ρ c (Proc.devRef .tc main_v59) = _ from KHostC.C_v59 (W9 m ρ c)]
  funext j
  dsimp only [KHostC.edgeSum]
  rw [W9_arg m ρ c main_arg3 (by simp), W9_arg m ρ c main_arg4 (by simp), W9_arg m ρ c main_arg14 (by simp), scored_col0, scored_col1]
  rfl

/-- THE SECOND RESULT: the scores of the second edge list are the reference's. -/
theorem out1 : W10 m ρ c (Proc.devRef .tc main_v76)
    = val_main_v92 (F := Ideal) (m ((c : Thread nD τ).loc main_arg0)) (m ((c : Thread nD τ).loc main_arg1)) (m ((c : Thread nD τ).loc main_arg2))
        (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) := by
  rw [v92_eq, show W10 m ρ c (Proc.devRef .tc main_v76) = _ from KHostC.C_v76 (W9 m ρ c)]
  funext j
  dsimp only [KHostC.edgeSum]
  rw [W9_arg m ρ c main_arg5 (by simp), W9_arg m ρ c main_arg6 (by simp), W9_arg m ρ c main_arg14 (by simp), scored_col0, scored_col1]
  rfl

end Cert.KernelIdeal.KValue

end
-- ==== Proof.lean ====
/- The proof of Cert.Claim, for a two-layer mean-aggregating graph network with an edge scorer.
   The kernel program and the reference program, read on the extended reals from memories that agree on the
   arguments, both run, leave the arguments unchanged, and end with equal score arrays: each of the kernel's two
   result arrays is the reference's composed term of the arguments (the kernel projects before it aggregates in
   layer two; a matrix product passes through the neighbourhood mean of nonnegative rows over positive counts).
   The three frame claims are the generated frame runs; the idealization rewrote nothing. -/
import proofs.«160922_j50053548868188_2_alg».proof.Defs
import proofs.«160922_j50053548868188_2_alg».proof.Proof.Gen.Kernel
import proofs.«160922_j50053548868188_2_alg».proof.Proof.Gen.Kernel.Skeleton
import proofs.«160922_j50053548868188_2_alg».proof.Proof.Gen.Kernel.Launch
import proofs.«160922_j50053548868188_2_alg».proof.Proof.Gen.Kernel.Points
import proofs.«160922_j50053548868188_2_alg».proof.Proof.Gen.Kernel.Frame
import proofs.«160922_j50053548868188_2_alg».proof.Proof.Gen.KernelIdeal
import proofs.«160922_j50053548868188_2_alg».proof.Proof.Gen.KernelIdeal.Skeleton
import proofs.«160922_j50053548868188_2_alg».proof.Proof.Gen.KernelIdeal.Launch
import proofs.«160922_j50053548868188_2_alg».proof.Proof.Gen.KernelIdeal.Points
import proofs.«160922_j50053548868188_2_alg».proof.Proof.Gen.KernelIdeal.Frame
import proofs.«160922_j50053548868188_2_alg».proof.Proof.Gen.ReferenceIdeal
import proofs.«160922_j50053548868188_2_alg».proof.Proof.Gen.Pre_finite_inputs
import proofs.«160922_j50053548868188_2_alg».proof.Proof.Gen.ReferenceIdeal.Run
import proofs.«160922_j50053548868188_2_alg».proof.Proof.Gen.ReferenceIdeal.Read
import proofs.«160922_j50053548868188_2_alg».proof.Proof.KernelRun
import proofs.«160922_j50053548868188_2_alg».proof.Proof.KValue
import Idealize.ShloMosaic.Adequacy
import Idealize.ShloMosaic.Init

noncomputable section

namespace Cert.Proof

open Idealize.ShloMosaic Idealize.ShloMosaic.TcCoe Idealize.SL.Sem

/-- The kernel program runs and leaves its arguments unchanged: the generated frame run. -/
theorem frame_k : Cert.frame_Kernel := fun m ρ _ => Cert.Kernel.Gen.frame m ρ

/-- The kernel program read on the extended reals runs and leaves its arguments unchanged: the generated frame run. -/
theorem frame_ki : Cert.frame_KernelIdeal := fun m ρ _ => Cert.KernelIdeal.Gen.frame m ρ

/-- The reference program runs and leaves its arguments unchanged: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals, from memories that agree on the arguments, the kernel's two result arrays and the
    reference's are the same two functions of the arguments: the reference's composed terms. -/
theorem algebraic : Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.out0 m ρ c), (h c).2.1.trans (Cert.KernelIdeal.KValue.out1 m ρ c), (h c).2.2⟩)
      (Cert.KernelIdeal.KRun.run_vals m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13, a14⟩ := hagree c
    refine ⟨(h c).1.trans ((Cert.ReferenceIdeal.Read.val_main_v70_eq m' c).trans ?_),
      (h c).2.1.trans ((Cert.ReferenceIdeal.Read.val_main_v92_eq m' c).trans ?_), (h c).2.2⟩
    · rw [a0, a1, a2, a3, a4, a7, a8, a9, a10, a11, a12, a13, a14]
    · rw [a0, a1, a2, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
